-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S2x128x128 : Shape := ⟨3, ![2, 128, 128]⟩
abbrev S128x128 : Shape := ⟨2, ![128, 128]⟩
abbrev S128 : Shape := ⟨1, ![128]⟩
abbrev S2x128x64 : Shape := ⟨3, ![2, 128, 64]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x64 : S_.BroadcastsInDim S2x128x64 (![] : Fin 0 → Fin S2x128x64.rank)
  reducesTo_S2x128x64_S_d0_1_2 : S2x128x64.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S2x128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x64 .f32 := Host.absf main_arg6
  let main_cst_6 : FVec F S_ .f32 := constant S_ .f32 0x7F800000#32
  let main_v20 : FVec F S2x128x64 .f32 := broadcastInDim S2x128x64 ![] bcast_S_S2x128x64 main_cst_6
  let main_v21 : IVec S2x128x64 1 := cmpf .olt main_v19 main_v20
  let main_c_7 : IVec S_ 1 := constantI S_ 1 1#1
  let main_v22 : IVec S_ 1 := (fun x v => Host.reduce IntOp.andi x v reducesTo_S2x128x64_S_d0_1_2 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S1600000 32) (main_arg3 : FVec F S2x128x128 .f32) (main_arg4 : FVec F S128x128 .f32) (main_arg5 : FVec F S128 .f32) (main_arg6 : FVec F S2x128x64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S2x128x128 : Shape := ⟨3, ![2, 128, 128]⟩
abbrev S128x128 : Shape := ⟨2, ![128, 128]⟩
abbrev S128 : Shape := ⟨1, ![128]⟩
abbrev S2x128x64 : Shape := ⟨3, ![2, 128, 64]⟩
abbrev S128x64 : Shape := ⟨2, ![128, 64]⟩
abbrev S64 : Shape := ⟨1, ![64]⟩
abbrev S1x1600000 : Shape := ⟨2, ![1, 1600000]⟩
abbrev S1x128x128 : Shape := ⟨3, ![1, 128, 128]⟩
abbrev S128x384 : Shape := ⟨2, ![128, 384]⟩
abbrev S_ : Shape := ⟨0, ![]⟩
abbrev S384 : Shape := ⟨1, ![384]⟩
abbrev S1x384 : Shape := ⟨2, ![1, 384]⟩
abbrev S100000x384 : Shape := ⟨2, ![100000, 384]⟩
abbrev S5000x128 : Shape := ⟨2, ![5000, 128]⟩
abbrev S5000x384 : Shape := ⟨2, ![5000, 384]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128x64 : Shape := ⟨3, ![1, 128, 64]⟩
abbrev S128x192 : Shape := ⟨2, ![128, 192]⟩
abbrev S192 : Shape := ⟨1, ![192]⟩
abbrev S1x192 : Shape := ⟨2, ![1, 192]⟩
abbrev S100000x192 : Shape := ⟨2, ![100000, 192]⟩
abbrev S5000x192 : Shape := ⟨2, ![5000, 192]⟩
abbrev S100000x64 : Shape := ⟨2, ![100000, 64]⟩
abbrev S1600000x64 : Shape := ⟨2, ![1600000, 64]⟩

abbrev nBuf : Space → Nat
  | .hbm => 196
  | .vmem => 12
  | .smem => 0
  | _ => 0

abbrev hbmTy0_0 (i : Nat) : BufTy := match i % 128 with
  | 0 => ⟨S100000x128, .f32⟩
  | 1 => ⟨S2x1600000, .i32⟩
  | 2 => ⟨S1600000, .i32⟩
  | 3 => ⟨S2x128x128, .f32⟩
  | 4 => ⟨S128x128, .f32⟩
  | 5 => ⟨S128, .f32⟩
  | 6 => ⟨S2x128x64, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S1x128x128, .f32⟩
  | 14 => ⟨S128x128, .f32⟩
  | 15 => ⟨S1x128x128, .f32⟩
  | 16 => ⟨S128x128, .f32⟩
  | 17 => ⟨S128x384, .f32⟩
  | 18 => ⟨S_, .f32⟩
  | 19 => ⟨S128, .f32⟩
  | 20 => ⟨S_, .f32⟩
  | 21 => ⟨S128, .f32⟩
  | 22 => ⟨S384, .f32⟩
  | 23 => ⟨S1x384, .f32⟩
  | 24 => ⟨S100000x384, .f32⟩
  | 25 => ⟨S100000x128, .f32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S1600000x1, .i1⟩
  | 40 => ⟨S_, .f32⟩
  | 41 => ⟨S_, .f32⟩
  | 42 => ⟨S1600000x128, .i1⟩
  | 43 => ⟨S1600000x128, .f32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S1600000, .f32⟩
  | 50 => ⟨S_, .f32⟩
  | 51 => ⟨S100000, .f32⟩
  | 52 => ⟨S1600000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S100000x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S1600000x1, .i1⟩
  | 75 => ⟨S_, .f32⟩
  | 76 => ⟨S_, .f32⟩
  | 77 => ⟨S1600000x128, .i1⟩
  | 78 => ⟨S1600000x128, .f32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S1600000, .f32⟩
  | 85 => ⟨S_, .f32⟩
  | 86 => ⟨S100000, .f32⟩
  | 87 => ⟨S1600000x1, .i32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S1x1600000, .i32⟩
  | 100 => ⟨S1600000, .i32⟩
  | 101 => ⟨S1x1600000, .i32⟩
  | 102 => ⟨S1600000, .i32⟩
  | 103 => ⟨S1x128x64, .f32⟩
  | 104 => ⟨S128x64, .f32⟩
  | 105 => ⟨S1x128x64, .f32⟩
  | 106 => ⟨S128x64, .f32⟩
  | 107 => ⟨S128x192, .f32⟩
  | 108 => ⟨S_, .f32⟩
  | 109 => ⟨S64, .f32⟩
  | 110 => ⟨S_, .f32⟩
  | 111 => ⟨S64, .f32⟩
  | 112 => ⟨S192, .f32⟩
  | 113 => ⟨S1x192, .f32⟩
  | 114 => ⟨S100000x192, .f32⟩
  | 115 => ⟨S100000x64, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x64, .f32⟩
  | 1 => ⟨S1600000x1, .i1⟩
  | 2 => ⟨S_, .f32⟩
  | 3 => ⟨S_, .f32⟩
  | 4 => ⟨S1600000x64, .i1⟩
  | 5 => ⟨S1600000x64, .f32⟩
  | 6 => ⟨S1600000x64, .f32⟩
  | 7 => ⟨S_, .f32⟩
  | 8 => ⟨S100000x64, .f32⟩
  | 9 => ⟨S1600000x1, .i32⟩
  | 10 => ⟨S100000x64, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x64, .f32⟩
  | 21 => ⟨S100000x64, .f32⟩
  | 22 => ⟨S100000x64, .f32⟩
  | 23 => ⟨S100000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S1600000x1, .i1⟩
  | 37 => ⟨S_, .f32⟩
  | 38 => ⟨S_, .f32⟩
  | 39 => ⟨S1600000x64, .i1⟩
  | 40 => ⟨S1600000x64, .f32⟩
  | 41 => ⟨S1600000x64, .f32⟩
  | 42 => ⟨S_, .f32⟩
  | 43 => ⟨S100000x64, .f32⟩
  | 44 => ⟨S1600000x1, .i32⟩
  | 45 => ⟨S100000x64, .f32⟩
  | 46 => ⟨S1600000, .f32⟩
  | 47 => ⟨S_, .f32⟩
  | 48 => ⟨S100000, .f32⟩
  | 49 => ⟨S1600000x1, .i32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x64, .f32⟩
  | 56 => ⟨S100000x64, .f32⟩
  | 57 => ⟨S100000x64, .f32⟩
  | 58 => ⟨S100000x64, .f32⟩
  | 59 => ⟨S_, .f32⟩
  | 60 => ⟨S100000, .f32⟩
  | 61 => ⟨S100000x1, .f32⟩
  | 62 => ⟨S100000x1, .f32⟩
  | 63 => ⟨S_, .f32⟩
  | 64 => ⟨S100000x1, .f32⟩
  | 65 => ⟨S100000x1, .f32⟩
  | 66 => ⟨S100000x64, .f32⟩
  | 67 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S1x384, .f32⟩
  | .local _ .vmem, ⟨4, _⟩ => ⟨S5000x384, .f32⟩
  | .local _ .vmem, ⟨5, _⟩ => ⟨S5000x384, .f32⟩
  | .local _ .vmem, ⟨6, _⟩ => ⟨S5000x128, .f32⟩
  | .local _ .vmem, ⟨7, _⟩ => ⟨S5000x128, .f32⟩
  | .local _ .vmem, ⟨8, _⟩ => ⟨S128x192, .f32⟩
  | .local _ .vmem, ⟨9, _⟩ => ⟨S1x192, .f32⟩
  | .local _ .vmem, ⟨10, _⟩ => ⟨S5000x192, .f32⟩
  | .local _ .vmem, ⟨11, _⟩ => ⟨S5000x192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_cst_15 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_16 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_c_18 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v92 : Ref sig .tc := ⟨.hbm, 134, rfl⟩
abbrev main_cst_20 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_22 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_23 : Ref sig .tc := ⟨.hbm, 152, rfl⟩
abbrev main_v107 : Ref sig .tc := ⟨.hbm, 153, rfl⟩
abbrev main_v108 : Ref sig .tc := ⟨.hbm, 154, rfl⟩
abbrev main_c_24 : Ref sig .tc := ⟨.hbm, 155, rfl⟩
abbrev main_v109 : Ref sig .tc := ⟨.hbm, 156, rfl⟩
abbrev main_v110 : Ref sig .tc := ⟨.hbm, 157, rfl⟩
abbrev main_c_25 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_26 : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_v117 : Ref sig .tc := ⟨.hbm, 169, rfl⟩
abbrev main_cst_27 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_28 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_29 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_30 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_31 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  concatenates_S128x128_S128x128_S128x128_S128x384_d1 : Shape.Concatenates [S128x128, S128x128, S128x128] S128x384 1
  bcast_S_S128 : S_.BroadcastsInDim S128 (![] : Fin 0 → Fin S128.rank)
  concatenates_S128_S128_S128_S384_d0 : Shape.Concatenates [S128, S128, S128] S384 0
  shapeCasts_S384_S1x384 : S384.ShapeCasts S1x384
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S5000x384 : S1x384.Broadcasts S5000x384
  inb_S5000x384_S5000x384_0_0 : ∀ a, (![0, 0] : Fin 2 → Nat) a + S5000x384.size a ≤ S5000x384.size a
  h_S5000x384 : 0 < S5000x384.numel
  slices_S100000x384_S100000x128_0_0 : S100000x384.Slices ![0, 0] S100000x128
  slices_S100000x384_S100000x128_0_128 : S100000x384.Slices ![0, 128] S100000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S100000x384_S100000x128_0_256 : S100000x384.Slices ![0, 256] S100000x128
  slices_S2x128x64_S1x128x64_0_0_0 : S2x128x64.Slices ![0, 0, 0] S1x128x64
  shapeCasts_S1x128x64_S128x64 : S1x128x64.ShapeCasts S128x64
  slices_S2x128x64_S1x128x64_1_0_0 : S2x128x64.Slices ![1, 0, 0] S1x128x64
  concatenates_S128x64_S128x64_S128x64_S128x192_d1 : Shape.Concatenates [S128x64, S128x64, S128x64] S128x192 1
  bcast_S_S64 : S_.BroadcastsInDim S64 (![] : Fin 0 → Fin S64.rank)
  concatenates_S64_S64_S64_S192_d0 : Shape.Concatenates [S64, S64, S64] S192 0
  shapeCasts_S192_S1x192 : S192.ShapeCasts S1x192
  shapeCasts_S5000x128_S5000x128 : S5000x128.ShapeCasts S5000x128
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S5000x192_S5000x192_0_0 : ∀ a, (![0, 0] : Fin 2 → Nat) a + S5000x192.size a ≤ S5000x192.size a
  h_S5000x192 : 0 < S5000x192.numel
  slices_S100000x192_S100000x64_0_0 : S100000x192.Slices ![0, 0] S100000x64
  slices_S100000x192_S100000x64_0_64 : S100000x192.Slices ![0, 64] S100000x64
  bcast_S1600000x1_S1600000x64_0_1 : S1600000x1.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S100000x192_S100000x64_0_128 : S100000x192.Slices ![0, 128] S100000x64
  reducesTo_S100000x64_S100000_d1 : S100000x64.ReducesTo [1] S100000
  h_S_ : 0 < S_.numel
  bcast_S_S100000x1 : S_.BroadcastsInDim S100000x1 (![] : Fin 0 → Fin S100000x1.rank)
  dot_S5000x128_S128x384_S5000x384_1_0_0_1_n_n_wf : DotDims.WF S5000x128 S128x384 S5000x384 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x192_S5000x192_1_0_0_1_n_n_wf : DotDims.WF S5000x128 S128x192 S5000x192 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x384.size a ≤ S100000x384.size a
  hwx0_3 : ∀ i : grid0.Coords, EltTy.bits .f32 = 32 ∨ (Rect.block (s := S100000x384) S5000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x192.size a ≤ S128x192.size a
  hwx1_1 : ∀ i : grid1.Coords, EltTy.bits .f32 = 32 ∨ (Rect.block (s := S128x192) S128x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x192.size a ≤ S1x192.size a
  hwx1_2 : ∀ i : grid1.Coords, EltTy.bits .f32 = 32 ∨ (Rect.block (s := S1x192) S1x192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x192.size a ≤ S100000x192.size a
  hwx1_3 : ∀ i : grid1.Coords, EltTy.bits .f32 = 32 ∨ (Rect.block (s := S100000x192) S5000x192.size (cc1_transform_3 i) (hinb1_3 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x192_S5000x192_1_0_0_1_n_n : DotDims S5000x128 S128x192 S5000x192 where
  lhsContracting := [1]
  rhsContracting := [0]
  lhsNonContracting := [0]
  rhsNonContracting := [1]
  lhsBatch := []
  rhsBatch := []
  wf := dot_S5000x128_S128x192_S5000x192_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v65) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v74) S128x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S1x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S5000x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S2x128x128 : Shape := ⟨3, ![2, 128, 128]⟩
abbrev S128x128 : Shape := ⟨2, ![128, 128]⟩
abbrev S128 : Shape := ⟨1, ![128]⟩
abbrev S2x128x64 : Shape := ⟨3, ![2, 128, 64]⟩
abbrev S128x64 : Shape := ⟨2, ![128, 64]⟩
abbrev S64 : Shape := ⟨1, ![64]⟩
abbrev S1x1600000 : Shape := ⟨2, ![1, 1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1x128x64 : Shape := ⟨3, ![1, 128, 64]⟩
abbrev S1600000x64 : Shape := ⟨2, ![1600000, 64]⟩

abbrev nBuf : Space → Nat
  | .hbm => 168
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .i32⟩
  | 3 => ⟨S2x128x128, .f32⟩
  | 4 => ⟨S128x128, .f32⟩
  | 5 => ⟨S128, .f32⟩
  | 6 => ⟨S2x128x64, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S1x128, .f32⟩
  | 15 => ⟨S100000x128, .f32⟩
  | 16 => ⟨S100000x128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .i32⟩
  | 27 => ⟨S1600000, .i32⟩
  | 28 => ⟨S1600000, .i1⟩
  | 29 => ⟨S1600000x1, .i1⟩
  | 30 => ⟨S_, .f32⟩
  | 31 => ⟨S_, .f32⟩
  | 32 => ⟨S1600000x128, .i1⟩
  | 33 => ⟨S1600000x128, .f32⟩
  | 34 => ⟨S1600000x128, .f32⟩
  | 35 => ⟨S1x128x128, .f32⟩
  | 36 => ⟨S128x128, .f32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S1600000, .f32⟩
  | 43 => ⟨S_, .f32⟩
  | 44 => ⟨S100000, .f32⟩
  | 45 => ⟨S1600000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S1600000x1, .i1⟩
  | 58 => ⟨S_, .f32⟩
  | 59 => ⟨S_, .f32⟩
  | 60 => ⟨S1600000x128, .i1⟩
  | 61 => ⟨S1600000x128, .f32⟩
  | 62 => ⟨S1600000x128, .f32⟩
  | 63 => ⟨S1x128x128, .f32⟩
  | 64 => ⟨S128x128, .f32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S1600000, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S1x1600000, .i32⟩
  | 86 => ⟨S1600000, .i32⟩
  | 87 => ⟨S1x1600000, .i32⟩
  | 88 => ⟨S1600000, .i32⟩
  | 89 => ⟨S100000x64, .f32⟩
  | 90 => ⟨S1x64, .f32⟩
  | 91 => ⟨S100000x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .i32⟩
  | 103 => ⟨S1600000, .i32⟩
  | 104 => ⟨S1600000, .i1⟩
  | 105 => ⟨S1600000x1, .i1⟩
  | 106 => ⟨S_, .f32⟩
  | 107 => ⟨S_, .f32⟩
  | 108 => ⟨S1600000x128, .i1⟩
  | 109 => ⟨S1600000x128, .f32⟩
  | 110 => ⟨S1600000x128, .f32⟩
  | 111 => ⟨S1x128x64, .f32⟩
  | 112 => ⟨S128x64, .f32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S1600000, .f32⟩
  | 119 => ⟨S_, .f32⟩
  | 120 => ⟨S100000, .f32⟩
  | 121 => ⟨S1600000x1, .i32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .i32⟩
  | 3 => ⟨S1600000, .i32⟩
  | 4 => ⟨S1600000, .i1⟩
  | 5 => ⟨S1600000x1, .i1⟩
  | 6 => ⟨S_, .f32⟩
  | 7 => ⟨S_, .f32⟩
  | 8 => ⟨S1600000x128, .i1⟩
  | 9 => ⟨S1600000x128, .f32⟩
  | 10 => ⟨S1600000x128, .f32⟩
  | 11 => ⟨S1x128x64, .f32⟩
  | 12 => ⟨S128x64, .f32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x64, .f32⟩
  | 28 => ⟨S100000x64, .f32⟩
  | 29 => ⟨S100000x64, .f32⟩
  | 30 => ⟨S100000x64, .f32⟩
  | 31 => ⟨S_, .f32⟩
  | 32 => ⟨S100000, .f32⟩
  | 33 => ⟨S100000x1, .f32⟩
  | 34 => ⟨S100000x1, .f32⟩
  | 35 => ⟨S_, .f32⟩
  | 36 => ⟨S100000x1, .f32⟩
  | 37 => ⟨S100000x1, .f32⟩
  | 38 => ⟨S100000x64, .f32⟩
  | 39 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call2_cst : Ref sig .tc := ⟨.hbm, 82, rfl⟩
abbrev main_call2_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_10 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_13 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_14 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_16 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_17 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_18 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_19 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_20 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_21 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_22 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_23 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S1600000x128 : S_.BroadcastsInDim S1600000x128 (![] : Fin 0 → Fin S1600000x128.rank)
  slices_S2x128x128_S1x128x128_0_0_0 : S2x128x128.Slices ![0, 0, 0] S1x128x128
  shapeCasts_S1x128x128_S128x128 : S1x128x128.ShapeCasts S128x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_1_0_0 : S2x128x128.Slices ![1, 0, 0] S1x128x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x128x64_S1x128x64_0_0_0 : S2x128x64.Slices ![0, 0, 0] S1x128x64
  shapeCasts_S1x128x64_S128x64 : S1x128x64.ShapeCasts S128x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S2x128x64_S1x128x64_1_0_0 : S2x128x64.Slices ![1, 0, 0] S1x128x64
  reducesTo_S100000x64_S100000_d1 : S100000x64.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KData.lean ====
/-
  The proof data of the two row-block pipelines, at any float instance.

  Each pallas_call walks the 100000 rows in 20 blocks of 5000; at a point the body reads the row block of its first
  operand, the whole weight matrix and the whole one-row bias, and stores `block · W + bias` over the whole output
  block. What follows names, for any contents `V` of the buffers when a region is entered: a window's block at a point,
  the output block the body leaves, and the pipeline's proof data built from them.
-/
import proofs.«165880_j73478300500627_1_alg».proof.Proof.Gen.Kernel.Launch
import proofs.«165880_j73478300500627_1_alg».proof.Proof.Gen.Kernel.Skeleton
import proofs.«165880_j73478300500627_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
variable (V : (c : Dev nD) → (b : Ref sig .tc) → Buf (Elt F) ((c : Thread nD τ).loc b))

/-! ## The first pipeline (layer one's combined linear map) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S5000x384 := Rect.unit (s := S5000x384) ![0, 0] S5000x384.size inb_S5000x384_S5000x384_0_0

/-- The output block after the body: its one store, of the payload of the three loaded blocks. -/
def out0_3 (x0 : Vec F S5000x128 .f32) (x1 : Vec F S128x384 .f32) (x2 : Vec F S1x384 .f32) : Vec F S5000x384 .f32 :=
  View.canon [⟨r0_3, k0_pay1 (View.ld x0 r0_0) (View.ld x1 r0_1) (View.ld x2 r0_2)⟩]

/-- The one store covers the whole block. -/
theorem cover0_3 (p0 : Vec F S5000x384 .f32) (y : S5000x384.Idx) :
    ∃ pc ∈ ([⟨r0_3, p0⟩] : List (View.Piece (Elt F) S5000x384 .f32)), y ∈ pc.1.set :=
  View.cover_of_tiled [⟨r0_3, p0⟩] S5000x384.size (by rfl) y

/-- The proof data of the first pipeline on core `c`: the arrays as the region finds them; after the body each input's
    buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The second pipeline (layer two's combined linear map) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S128x192 := Rect.unit (s := S128x192) ![0, 0] S128x192.size inb_S128x192_S128x192_0_0
abbrev r1_2 : Rect S1x192 := Rect.unit (s := S1x192) ![0, 0] S1x192.size inb_S1x192_S1x192_0_0
abbrev r1_3 : Rect S5000x192 := Rect.unit (s := S5000x192) ![0, 0] S5000x192.size inb_S5000x192_S5000x192_0_0

def out1_3 (x0 : Vec F S5000x128 .f32) (x1 : Vec F S128x192 .f32) (x2 : Vec F S1x192 .f32) : Vec F S5000x192 .f32 :=
  View.canon [⟨r1_3, k1_pay1 (View.ld x0 r1_0) (View.ld x1 r1_1) (View.ld x2 r1_2)⟩]

theorem cover1_3 (p0 : Vec F S5000x192 .f32) (y : S5000x192.Idx) :
    ∃ pc ∈ ([⟨r1_3, p0⟩] : List (View.Piece (Elt F) S5000x192 .f32)), y ∈ pc.1.set :=
  View.cover_of_tiled [⟨r1_3, p0⟩] S5000x192.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Regions

end Cert.Kernel.Hand

end
-- ==== Proof.KBody.lean ====
/-
  The two pipelines' bodies: at any contents `V` of the buffers when a region is entered, each input window's staging
  buffer holds its block at every point, the kernel function run on whole memrefs leaves the payload of the three
  loaded blocks over the output block, and so the library's body obligation holds for the proof data `dat0`, `dat1`.
-/
import proofs.«165880_j73478300500627_1_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first pipeline's body, at the entry contents `V` -/

/-- Input window 0's current staging buffer holds its block at every point, fetched there or not: an unfetched
    window's index has not moved, the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: an unfetched
    window's index has not moved, the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: an unfetched
    window's index has not moved, the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The kernel body on whole staging memrefs, the three inputs' at read contents and the output's at anything, runs to
    the continuation holding the inputs' as they were and the output's at `out0_3` of the inputs': the body loads the
    three input blocks, loads the output block (whatever it holds), and stores the payload over the whole output block. -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S5000x384 .f32) (harg4 : arg4.IsWhole)
    (x0 : Vec F S5000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # The second pipeline's body, at the entry contents `V` -/

/-- Input window 0's current staging buffer holds its block at every point, fetched there or not: an unfetched
    window's index has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: an unfetched
    window's index has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: an unfetched
    window's index has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The kernel body on whole staging memrefs, the three inputs' at read contents and the output's at anything, runs to
    the continuation holding the inputs' as they were and the output's at `out1_3` of the inputs': the body loads the
    three input blocks, loads the output block (whatever it holds), and stores the payload over the whole output block. -/
theorem sound_kernel1 (c : Dev nD) (E : Set ℕ) (i : grid1.Coords) (arg1 : Memref sig .tc .vmem S5000x128 .f32) (harg1 : arg1.IsWhole) (arg2 : Memref sig .tc .vmem S128x192 .f32) (harg2 : arg2.IsWhole) (arg3 : Memref sig .tc .vmem S1x192 .f32) (harg3 : arg3.IsWhole) (arg4 : Memref sig .tc .vmem S5000x192 .f32) (harg4 : arg4.IsWhole)
    (x0 : Vec F S5000x128 .f32) (x1 : Vec F S128x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The run of the two-region program: what each region leaves in its output array (`outs`), each region as a segment
  between the thread states "every unscoped buffer whole at the boundary's contents, the generator register at some
  state, nothing owed", the frame claim, and the final contents of every unscoped buffer.
-/
import proofs.«165880_j73478300500627_1_alg».proof.Proof.KBody
import proofs.«165880_j73478300500627_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave -/

theorem arr0_3 : Pipeline.arrRef spec0 3 = main_v13 := rfl
theorem arr1_3 : Pipeline.arrRef spec1 3 = main_v79 := rfl

/-- The first region's arrays at its exit, read at every reference: the inputs as entered, the output's write-backs
    folded. -/
def outs1 : Gen.Outs (F := F) := fun _ r c =>
  Pipeline.withArrays spec0 c (Gen.V1 m c) (fun w => (dat0 (fun c b => Gen.V1 m c b) c).arrAt w cfg0.N) (Proc.devRef .tc r)

theorem outs1_2 (c : Dev nD) : outs1 m 2 main_v13 c = (dat0 (fun c b => Gen.V1 m c b) c).arrAt 3 cfg0.N := by
  unfold outs1
  exact Pipeline.withArrays_arr spec0 launch0.win.arr_inj c _ _ 3

/-- What the regions leave: after item 1 the first region's arrays; after item 9 the second region's, its entry
    contents being those the first region's results and the host stretches between make. -/
def outs : Gen.Outs (F := F) := fun J r c =>
  if J = 2 then outs1 m J r c
  else Pipeline.withArrays spec1 c (Gen.V9 m (outs1 m) c) (fun w => (dat1 (fun c b => Gen.V9 m (outs1 m) c b) c).arrAt w cfg1.N) (Proc.devRef .tc r)

theorem outs_at2 (r : Ref sig .tc) (c : Dev nD) : outs m 2 r c = outs1 m 2 r c := by
  unfold outs; rw [if_pos rfl]

/-- The valuations up to the second region read `outs` at the first region's point only. -/
theorem V2_outs (c : Dev nD) : Gen.V2 m (outs m) c = Gen.V2 m (outs1 m) c := by
  unfold Gen.V2; rw [outs_at2]

theorem V9_outs (c : Dev nD) : Gen.V9 m (outs m) c = Gen.V9 m (outs1 m) c := by
  unfold Gen.V9 Gen.V8 Gen.V7 Gen.V6 Gen.V5 Gen.V4 Gen.V3; rw [V2_outs]

theorem V9_fun : (fun (c : Dev nD) (b : Ref sig .tc) => (Gen.V9 m (outs m) c b : Buf (Elt F) ((c : Thread nD τ).loc b)))
    = fun (c : Dev nD) (b : Ref sig .tc) => (Gen.V9 m (outs1 m) c b : Buf (Elt F) ((c : Thread nD τ).loc b)) := by
  funext c b; rw [V9_outs]

theorem outs_2 (c : Dev nD) : outs m 2 main_v13 c = (dat0 (fun c b => Gen.V1 m c b) c).arrAt 3 cfg0.N :=
  (outs_at2 m main_v13 c).trans (outs1_2 m c)

theorem outs_10 (c : Dev nD) : outs m 10 main_v79 c = (dat1 (fun c b => Gen.V9 m (outs m) c b) c).arrAt 3 cfg1.N := by
  rw [V9_fun]
  unfold outs; rw [if_neg (by decide)]
  exact Pipeline.withArrays_arr spec1 launch1.win.arr_inj c _ _ 3

/-- The valuation after a region reads, at the region's output array, what `outs` names there. -/
theorem V2_at_out (c : Dev nD) : Gen.V2 m (outs m) c main_v13 = outs m 2 main_v13 c := by
  unfold Gen.V2; exact Function.update_self _ _ _
theorem V10_at_out (c : Dev nD) : Gen.V10 m (outs m) c main_v79 = outs m 10 main_v79 c := by
  unfold Gen.V10; exact Function.update_self _ _ _

/-- At the region's exit each of its arrays holds what the pipeline leaves: an input's array is as entered and no
    region writes it; the output's array is the unknown the valuations are written over, fixed by `outs`. -/
theorem hF0 (c : Dev nD) (w : Fin cfg0.W) :
    (dat0 (fun c b => Gen.V1 m c b) c).arrAt w cfg0.N = Gen.V2 m (outs m) c (Pipeline.arrRef spec0 w) :=
  match w with
  | ⟨0, hlt⟩ => ((dat0 (fun c b => Gen.V1 m c b) c).arrAt_in ⟨0, hlt⟩ rfl _).trans ((A_eq0 (fun c b => Gen.V1 m c b) c ⟨0, hlt⟩).trans (Gen.V2_of m (outs m) c (Pipeline.arrRef spec0 ⟨0, hlt⟩) (by decide +revert)).symm)
  | ⟨1, hlt⟩ => ((dat0 (fun c b => Gen.V1 m c b) c).arrAt_in ⟨1, hlt⟩ rfl _).trans ((A_eq0 (fun c b => Gen.V1 m c b) c ⟨1, hlt⟩).trans (Gen.V2_of m (outs m) c (Pipeline.arrRef spec0 ⟨1, hlt⟩) (by decide +revert)).symm)
  | ⟨2, hlt⟩ => ((dat0 (fun c b => Gen.V1 m c b) c).arrAt_in ⟨2, hlt⟩ rfl _).trans ((A_eq0 (fun c b => Gen.V1 m c b) c ⟨2, hlt⟩).trans (Gen.V2_of m (outs m) c (Pipeline.arrRef spec0 ⟨2, hlt⟩) (by decide +revert)).symm)
  | ⟨3, hlt⟩ => (outs_2 m c).symm.trans (V2_at_out m c).symm

/-- Every other buffer is as the region found it. -/
theorem hrest0 (c : Dev nD) : ∀ b, b ∉ Finset.univ.image (Pipeline.arrRef spec0) → Gen.V2 m (outs m) c b = Gen.V1 m c b :=
  fun b hb => Gen.V2_of m (outs m) c b fun h =>
    hb (Finset.mem_image.mpr ⟨3, Finset.mem_univ _, (arr0_3).trans (List.mem_singleton.mp h).symm⟩)

/-- At the region's exit each of its arrays holds what the pipeline leaves: an input's array is as entered and no
    region writes it; the output's array is the unknown the valuations are written over, fixed by `outs`. -/
theorem hF1 (c : Dev nD) (w : Fin cfg1.W) :
    (dat1 (fun c b => Gen.V9 m (outs m) c b) c).arrAt w cfg1.N = Gen.V10 m (outs m) c (Pipeline.arrRef spec1 w) :=
  match w with
  | ⟨0, hlt⟩ => ((dat1 (fun c b => Gen.V9 m (outs m) c b) c).arrAt_in ⟨0, hlt⟩ rfl _).trans ((A_eq1 (fun c b => Gen.V9 m (outs m) c b) c ⟨0, hlt⟩).trans (Gen.V10_of m (outs m) c (Pipeline.arrRef spec1 ⟨0, hlt⟩) (by decide +revert)).symm)
  | ⟨1, hlt⟩ => ((dat1 (fun c b => Gen.V9 m (outs m) c b) c).arrAt_in ⟨1, hlt⟩ rfl _).trans ((A_eq1 (fun c b => Gen.V9 m (outs m) c b) c ⟨1, hlt⟩).trans (Gen.V10_of m (outs m) c (Pipeline.arrRef spec1 ⟨1, hlt⟩) (by decide +revert)).symm)
  | ⟨2, hlt⟩ => ((dat1 (fun c b => Gen.V9 m (outs m) c b) c).arrAt_in ⟨2, hlt⟩ rfl _).trans ((A_eq1 (fun c b => Gen.V9 m (outs m) c b) c ⟨2, hlt⟩).trans (Gen.V10_of m (outs m) c (Pipeline.arrRef spec1 ⟨2, hlt⟩) (by decide +revert)).symm)
  | ⟨3, hlt⟩ => (outs_10 m c).symm.trans (V10_at_out m c).symm

/-- Every other buffer is as the region found it. -/
theorem hrest1 (c : Dev nD) : ∀ b, b ∉ Finset.univ.image (Pipeline.arrRef spec1) → Gen.V10 m (outs m) c b = Gen.V9 m (outs m) c b :=
  fun b hb => Gen.V10_of m (outs m) c b fun h =>
    hb (Finset.mem_image.mpr ⟨3, Finset.mem_univ _, (arr1_3).trans (List.mem_singleton.mp h).symm⟩)

/-! ## The proof data family and the thread state -/

/-- Every pipeline's proof data, each at its region's entry contents: a literal match. -/
def pdats : (p : Fin 2) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V9 m (outs m) c b) c

/-- No core owes another anything: no level is assigned. -/
abbrev Lz : GSem nD τ sig → Finset Unit := fun _ => ∅
abbrev lvz : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold
-- plain definitions in a metavariable's type
set_option backward.isDefEq.respectTransparency.types false in
/-- Region 0 over the thread state: entered from every unscoped buffer at its entry contents, left at its exit
    contents. Its arrays are split out of the unscoped buffers and put back at the exit contents; the generator register
    goes into the class invariant and comes out; nothing is owed; the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (fun c b => Gen.V1 m c b) c).loose
  hwaits := Pipeline.hwaits_of_owed_zero _ _ _ _ Lz lvz 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at its entry contents, left at its exit
    contents. Its arrays are split out of the unscoped buffers and put back at the exit contents; the generator register
    goes into the class invariant and comes out; nothing is owed; the kernel has no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => Gen.V9 m (outs m) c b) c).loose
  hwaits := Pipeline.hwaits_of_owed_zero _ _ _ _ Lz lvz 1 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V9 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V9 m (outs m) c b) (fun b => Gen.V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipeline library's, with no ghost resource besides. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes its rest state from what the launch deals it: the register as dealt, its dues at nothing. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lz lvz)
      ⊢ (|={Set.univ}=> bigSep Finset.univ (fun c : Dev nD => R (F := F) c) : sProp 𝕄) := by
  refine Pipeline.initEach Lz lvz fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

/-! ## The frame -/

set_option backward.isDefEq.respectTransparency.types false in
/-- From any memory with zero counters, every weakly fair execution of @main terminates and every final memory holds
    each argument as launched: the conditional frame at the two regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m (EP := emb₁) (ι := ()) (𝒱₀ := Variants.none) (L := Lz) (lv := lvz) (hL := fun _ _ => rfl) (ρ := ρ) (outs := outs m)
    (pdats := pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE2 := hE2)
    (R0 := reg0 m) (hpre0 := fun _ => .rfl) (hpost0 := fun _ => .rfl)
    (R1 := reg1 m) (hpre1 := fun _ => .rfl) (hpost1 := fun _ => .rfl)

/-! ## The final contents -/

set_option backward.isDefEq.respectTransparency.types false in
/-- From any memory with zero counters, every weakly fair execution of @main terminates and every final memory holds
    every unscoped buffer at the last valuation: the launch over the segments, the last thread state read against the
    final state. -/
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V15 m (outs m) c b) := by
  refine Pipeline.θ_run_regions_kit_dev (pcfgs (F := F)) Gen.adm (pdats m) () cellOf_inj emb₁ defs₀ Variants.none Lz lvz m ρ main
    (Gen.segs m (outs m) Variants.none Lz lvz (fun _ c => R c) () (pdats m) (reg0 m) (reg1 m))
    (fun c Q => by
      rewrite [main_chain c, Pipeline.Seg.run_eq_chain,
        show (Gen.segs m (outs m) Variants.none Lz lvz (fun _ c => R c) () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := hu₀)
    (T₀ := fun c => iprop(StableHlo.held (c : Thread nD τ) (Pipeline.ucRefs τ sig) (Gen.V0 m c) ∗ R c))
    (Tₙ := fun c => StableHlo.held (c : Thread nD τ) (Pipeline.ucRefs τ sig) (Gen.V15 m (outs m) c))
    (hch := fun c => ⟨.rfl, .rfl, .rfl, .rfl, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = Gen.V15 m (outs m) c b)
    (hfin := fun c s' => ?_) (hQ := fun _ h => h)
  · -- the launch: every unscoped buffer whole at the launch memory, the register as dealt, nothing owed
    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (Gen.V15 m (outs m) c) s')
    isplitl [Hh] <;> iassumption

end Cert.Kernel.Hand

end
-- ==== Proof.KIData.lean ====
/-
  The proof data of the two row-block pipelines, at any float instance.

  Each pallas_call walks the 100000 rows in 20 blocks of 5000; at a point the body reads the row block of its first
  operand, the whole weight matrix and the whole one-row bias, and stores `block · W + bias` over the whole output
  block. What follows names, for any contents `V` of the buffers when a region is entered: a window's block at a point,
  the output block the body leaves, and the pipeline's proof data built from them.
-/
import proofs.«165880_j73478300500627_1_alg».proof.Proof.Gen.KernelIdeal.Launch
import proofs.«165880_j73478300500627_1_alg».proof.Proof.Gen.KernelIdeal.Skeleton
import proofs.«165880_j73478300500627_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
variable (V : (c : Dev nD) → (b : Ref sig .tc) → Buf (Elt F) ((c : Thread nD τ).loc b))

/-! ## The first pipeline (layer one's combined linear map) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S5000x384 := Rect.unit (s := S5000x384) ![0, 0] S5000x384.size inb_S5000x384_S5000x384_0_0

/-- The output block after the body: its one store, of the payload of the three loaded blocks. -/
def out0_3 (x0 : Vec F S5000x128 .f32) (x1 : Vec F S128x384 .f32) (x2 : Vec F S1x384 .f32) : Vec F S5000x384 .f32 :=
  View.canon [⟨r0_3, k0_pay1 (View.ld x0 r0_0) (View.ld x1 r0_1) (View.ld x2 r0_2)⟩]

/-- The one store covers the whole block. -/
theorem cover0_3 (p0 : Vec F S5000x384 .f32) (y : S5000x384.Idx) :
    ∃ pc ∈ ([⟨r0_3, p0⟩] : List (View.Piece (Elt F) S5000x384 .f32)), y ∈ pc.1.set :=
  View.cover_of_tiled [⟨r0_3, p0⟩] S5000x384.size (by rfl) y

/-- The proof data of the first pipeline on core `c`: the arrays as the region finds them; after the body each input's
    buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The second pipeline (layer two's combined linear map) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S128x192 := Rect.unit (s := S128x192) ![0, 0] S128x192.size inb_S128x192_S128x192_0_0
abbrev r1_2 : Rect S1x192 := Rect.unit (s := S1x192) ![0, 0] S1x192.size inb_S1x192_S1x192_0_0
abbrev r1_3 : Rect S5000x192 := Rect.unit (s := S5000x192) ![0, 0] S5000x192.size inb_S5000x192_S5000x192_0_0

def out1_3 (x0 : Vec F S5000x128 .f32) (x1 : Vec F S128x192 .f32) (x2 : Vec F S1x192 .f32) : Vec F S5000x192 .f32 :=
  View.canon [⟨r1_3, k1_pay1 (View.ld x0 r1_0) (View.ld x1 r1_1) (View.ld x2 r1_2)⟩]

theorem cover1_3 (p0 : Vec F S5000x192 .f32) (y : S5000x192.Idx) :
    ∃ pc ∈ ([⟨r1_3, p0⟩] : List (View.Piece (Elt F) S5000x192 .f32)), y ∈ pc.1.set :=
  View.cover_of_tiled [⟨r1_3, p0⟩] S5000x192.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Regions

end Cert.KernelIdeal.Hand

end
-- ==== Proof.KIBody.lean ====
/-
  The two pipelines' bodies: at any contents `V` of the buffers when a region is entered, each input window's staging
  buffer holds its block at every point, the kernel function run on whole memrefs leaves the payload of the three
  loaded blocks over the output block, and so the library's body obligation holds for the proof data `dat0`, `dat1`.
-/
import proofs.«165880_j73478300500627_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first pipeline's body, at the entry contents `V` -/

/-- Input window 0's current staging buffer holds its block at every point, fetched there or not: an unfetched
    window's index has not moved, the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: an unfetched
    window's index has not moved, the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: an unfetched
    window's index has not moved, the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The kernel body on whole staging memrefs, the three inputs' at read contents and the output's at anything, runs to
    the continuation holding the inputs' as they were and the output's at `out0_3` of the inputs': the body loads the
    three input blocks, loads the output block (whatever it holds), and stores the payload over the whole output block. -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S5000x384 .f32) (harg4 : arg4.IsWhole)
    (x0 : Vec F S5000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # The second pipeline's body, at the entry contents `V` -/

/-- Input window 0's current staging buffer holds its block at every point, fetched there or not: an unfetched
    window's index has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: an unfetched
    window's index has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: an unfetched
    window's index has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The kernel body on whole staging memrefs, the three inputs' at read contents and the output's at anything, runs to
    the continuation holding the inputs' as they were and the output's at `out1_3` of the inputs': the body loads the
    three input blocks, loads the output block (whatever it holds), and stores the payload over the whole output block. -/
theorem sound_kernel1 (c : Dev nD) (E : Set ℕ) (i : grid1.Coords) (arg1 : Memref sig .tc .vmem S5000x128 .f32) (harg1 : arg1.IsWhole) (arg2 : Memref sig .tc .vmem S128x192 .f32) (harg2 : arg2.IsWhole) (arg3 : Memref sig .tc .vmem S1x192 .f32) (harg3 : arg3.IsWhole) (arg4 : Memref sig .tc .vmem S5000x192 .f32) (harg4 : arg4.IsWhole)
    (x0 : Vec F S5000x128 .f32) (x1 : Vec F S128x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRun.lean ====
/-
  The run of the two-region program: what each region leaves in its output array (`outs`), each region as a segment
  between the thread states "every unscoped buffer whole at the boundary's contents, the generator register at some
  state, nothing owed", the frame claim, and the final contents of every unscoped buffer.
-/
import proofs.«165880_j73478300500627_1_alg».proof.Proof.KIBody
import proofs.«165880_j73478300500627_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave -/

theorem arr0_3 : Pipeline.arrRef spec0 3 = main_v13 := rfl
theorem arr1_3 : Pipeline.arrRef spec1 3 = main_v79 := rfl

/-- The first region's arrays at its exit, read at every reference: the inputs as entered, the output's write-backs
    folded. -/
def outs1 : Gen.Outs (F := F) := fun _ r c =>
  Pipeline.withArrays spec0 c (Gen.V1 m c) (fun w => (dat0 (fun c b => Gen.V1 m c b) c).arrAt w cfg0.N) (Proc.devRef .tc r)

theorem outs1_2 (c : Dev nD) : outs1 m 2 main_v13 c = (dat0 (fun c b => Gen.V1 m c b) c).arrAt 3 cfg0.N := by
  unfold outs1
  exact Pipeline.withArrays_arr spec0 launch0.win.arr_inj c _ _ 3

/-- What the regions leave: after item 1 the first region's arrays; after item 9 the second region's, its entry
    contents being those the first region's results and the host stretches between make. -/
def outs : Gen.Outs (F := F) := fun J r c =>
  if J = 2 then outs1 m J r c
  else Pipeline.withArrays spec1 c (Gen.V9 m (outs1 m) c) (fun w => (dat1 (fun c b => Gen.V9 m (outs1 m) c b) c).arrAt w cfg1.N) (Proc.devRef .tc r)

theorem outs_at2 (r : Ref sig .tc) (c : Dev nD) : outs m 2 r c = outs1 m 2 r c := by
  unfold outs; rw [if_pos rfl]

/-- The valuations up to the second region read `outs` at the first region's point only. -/
theorem V2_outs (c : Dev nD) : Gen.V2 m (outs m) c = Gen.V2 m (outs1 m) c := by
  unfold Gen.V2; rw [outs_at2]

theorem V9_outs (c : Dev nD) : Gen.V9 m (outs m) c = Gen.V9 m (outs1 m) c := by
  unfold Gen.V9 Gen.V8 Gen.V7 Gen.V6 Gen.V5 Gen.V4 Gen.V3; rw [V2_outs]

theorem V9_fun : (fun (c : Dev nD) (b : Ref sig .tc) => (Gen.V9 m (outs m) c b : Buf (Elt F) ((c : Thread nD τ).loc b)))
    = fun (c : Dev nD) (b : Ref sig .tc) => (Gen.V9 m (outs1 m) c b : Buf (Elt F) ((c : Thread nD τ).loc b)) := by
  funext c b; rw [V9_outs]

theorem outs_2 (c : Dev nD) : outs m 2 main_v13 c = (dat0 (fun c b => Gen.V1 m c b) c).arrAt 3 cfg0.N :=
  (outs_at2 m main_v13 c).trans (outs1_2 m c)

theorem outs_10 (c : Dev nD) : outs m 10 main_v79 c = (dat1 (fun c b => Gen.V9 m (outs m) c b) c).arrAt 3 cfg1.N := by
  rw [V9_fun]
  unfold outs; rw [if_neg (by decide)]
  exact Pipeline.withArrays_arr spec1 launch1.win.arr_inj c _ _ 3

/-- The valuation after a region reads, at the region's output array, what `outs` names there. -/
theorem V2_at_out (c : Dev nD) : Gen.V2 m (outs m) c main_v13 = outs m 2 main_v13 c := by
  unfold Gen.V2; exact Function.update_self _ _ _
theorem V10_at_out (c : Dev nD) : Gen.V10 m (outs m) c main_v79 = outs m 10 main_v79 c := by
  unfold Gen.V10; exact Function.update_self _ _ _

/-- At the region's exit each of its arrays holds what the pipeline leaves: an input's array is as entered and no
    region writes it; the output's array is the unknown the valuations are written over, fixed by `outs`. -/
theorem hF0 (c : Dev nD) (w : Fin cfg0.W) :
    (dat0 (fun c b => Gen.V1 m c b) c).arrAt w cfg0.N = Gen.V2 m (outs m) c (Pipeline.arrRef spec0 w) :=
  match w with
  | ⟨0, hlt⟩ => ((dat0 (fun c b => Gen.V1 m c b) c).arrAt_in ⟨0, hlt⟩ rfl _).trans ((A_eq0 (fun c b => Gen.V1 m c b) c ⟨0, hlt⟩).trans (Gen.V2_of m (outs m) c (Pipeline.arrRef spec0 ⟨0, hlt⟩) (by decide +revert)).symm)
  | ⟨1, hlt⟩ => ((dat0 (fun c b => Gen.V1 m c b) c).arrAt_in ⟨1, hlt⟩ rfl _).trans ((A_eq0 (fun c b => Gen.V1 m c b) c ⟨1, hlt⟩).trans (Gen.V2_of m (outs m) c (Pipeline.arrRef spec0 ⟨1, hlt⟩) (by decide +revert)).symm)
  | ⟨2, hlt⟩ => ((dat0 (fun c b => Gen.V1 m c b) c).arrAt_in ⟨2, hlt⟩ rfl _).trans ((A_eq0 (fun c b => Gen.V1 m c b) c ⟨2, hlt⟩).trans (Gen.V2_of m (outs m) c (Pipeline.arrRef spec0 ⟨2, hlt⟩) (by decide +revert)).symm)
  | ⟨3, hlt⟩ => (outs_2 m c).symm.trans (V2_at_out m c).symm

/-- Every other buffer is as the region found it. -/
theorem hrest0 (c : Dev nD) : ∀ b, b ∉ Finset.univ.image (Pipeline.arrRef spec0) → Gen.V2 m (outs m) c b = Gen.V1 m c b :=
  fun b hb => Gen.V2_of m (outs m) c b fun h =>
    hb (Finset.mem_image.mpr ⟨3, Finset.mem_univ _, (arr0_3).trans (List.mem_singleton.mp h).symm⟩)

/-- At the region's exit each of its arrays holds what the pipeline leaves: an input's array is as entered and no
    region writes it; the output's array is the unknown the valuations are written over, fixed by `outs`. -/
theorem hF1 (c : Dev nD) (w : Fin cfg1.W) :
    (dat1 (fun c b => Gen.V9 m (outs m) c b) c).arrAt w cfg1.N = Gen.V10 m (outs m) c (Pipeline.arrRef spec1 w) :=
  match w with
  | ⟨0, hlt⟩ => ((dat1 (fun c b => Gen.V9 m (outs m) c b) c).arrAt_in ⟨0, hlt⟩ rfl _).trans ((A_eq1 (fun c b => Gen.V9 m (outs m) c b) c ⟨0, hlt⟩).trans (Gen.V10_of m (outs m) c (Pipeline.arrRef spec1 ⟨0, hlt⟩) (by decide +revert)).symm)
  | ⟨1, hlt⟩ => ((dat1 (fun c b => Gen.V9 m (outs m) c b) c).arrAt_in ⟨1, hlt⟩ rfl _).trans ((A_eq1 (fun c b => Gen.V9 m (outs m) c b) c ⟨1, hlt⟩).trans (Gen.V10_of m (outs m) c (Pipeline.arrRef spec1 ⟨1, hlt⟩) (by decide +revert)).symm)
  | ⟨2, hlt⟩ => ((dat1 (fun c b => Gen.V9 m (outs m) c b) c).arrAt_in ⟨2, hlt⟩ rfl _).trans ((A_eq1 (fun c b => Gen.V9 m (outs m) c b) c ⟨2, hlt⟩).trans (Gen.V10_of m (outs m) c (Pipeline.arrRef spec1 ⟨2, hlt⟩) (by decide +revert)).symm)
  | ⟨3, hlt⟩ => (outs_10 m c).symm.trans (V10_at_out m c).symm

/-- Every other buffer is as the region found it. -/
theorem hrest1 (c : Dev nD) : ∀ b, b ∉ Finset.univ.image (Pipeline.arrRef spec1) → Gen.V10 m (outs m) c b = Gen.V9 m (outs m) c b :=
  fun b hb => Gen.V10_of m (outs m) c b fun h =>
    hb (Finset.mem_image.mpr ⟨3, Finset.mem_univ _, (arr1_3).trans (List.mem_singleton.mp h).symm⟩)

/-! ## The proof data family and the thread state -/

/-- Every pipeline's proof data, each at its region's entry contents: a literal match. -/
def pdats : (p : Fin 2) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V9 m (outs m) c b) c

/-- No core owes another anything: no level is assigned. -/
abbrev Lz : GSem nD τ sig → Finset Unit := fun _ => ∅
abbrev lvz : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold
-- plain definitions in a metavariable's type
set_option backward.isDefEq.respectTransparency.types false in
/-- Region 0 over the thread state: entered from every unscoped buffer at its entry contents, left at its exit
    contents. Its arrays are split out of the unscoped buffers and put back at the exit contents; the generator register
    goes into the class invariant and comes out; nothing is owed; the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (fun c b => Gen.V1 m c b) c).loose
  hwaits := Pipeline.hwaits_of_owed_zero _ _ _ _ Lz lvz 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at its entry contents, left at its exit
    contents. Its arrays are split out of the unscoped buffers and put back at the exit contents; the generator register
    goes into the class invariant and comes out; nothing is owed; the kernel has no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => Gen.V9 m (outs m) c b) c).loose
  hwaits := Pipeline.hwaits_of_owed_zero _ _ _ _ Lz lvz 1 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V9 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V9 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V9 m (outs m) c b) (fun b => Gen.V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipeline library's, with no ghost resource besides. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes its rest state from what the launch deals it: the register as dealt, its dues at nothing. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts Lz lvz)
      ⊢ (|={Set.univ}=> bigSep Finset.univ (fun c : Dev nD => R (F := F) c) : sProp 𝕄) := by
  refine Pipeline.initEach Lz lvz fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

/-! ## The frame -/

set_option backward.isDefEq.respectTransparency.types false in
/-- From any memory with zero counters, every weakly fair execution of @main terminates and every final memory holds
    each argument as launched: the conditional frame at the two regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m (EP := emb₁) (ι := ()) (𝒱₀ := Variants.none) (L := Lz) (lv := lvz) (hL := fun _ _ => rfl) (ρ := ρ) (outs := outs m)
    (pdats := pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE2 := hE2)
    (R0 := reg0 m) (hpre0 := fun _ => .rfl) (hpost0 := fun _ => .rfl)
    (R1 := reg1 m) (hpre1 := fun _ => .rfl) (hpost1 := fun _ => .rfl)

/-! ## The final contents -/

set_option backward.isDefEq.respectTransparency.types false in
/-- From any memory with zero counters, every weakly fair execution of @main terminates and every final memory holds
    every unscoped buffer at the last valuation: the launch over the segments, the last thread state read against the
    final state. -/
theorem run (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V15 m (outs m) c b) := by
  refine Pipeline.θ_run_regions_kit_dev (pcfgs (F := F)) Gen.adm (pdats m) () cellOf_inj emb₁ defs₀ Variants.none Lz lvz m ρ main
    (Gen.segs m (outs m) Variants.none Lz lvz (fun _ c => R c) () (pdats m) (reg0 m) (reg1 m))
    (fun c Q => by
      rewrite [main_chain c, Pipeline.Seg.run_eq_chain,
        show (Gen.segs m (outs m) Variants.none Lz lvz (fun _ c => R c) () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := hu₀)
    (T₀ := fun c => iprop(StableHlo.held (c : Thread nD τ) (Pipeline.ucRefs τ sig) (Gen.V0 m c) ∗ R c))
    (Tₙ := fun c => StableHlo.held (c : Thread nD τ) (Pipeline.ucRefs τ sig) (Gen.V15 m (outs m) c))
    (hch := fun c => ⟨.rfl, .rfl, .rfl, .rfl, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = Gen.V15 m (outs m) c b)
    (hfin := fun c s' => ?_) (hQ := fun _ h => h)
  · -- the launch: every unscoped buffer whole at the launch memory, the register as dealt, nothing owed
    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (Gen.V15 m (outs m) c) s')
    isplitl [Hh] <;> iassumption

end Cert.KernelIdeal.Hand

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«165880_j73478300500627_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.KIValue.lean ====
/-
  The value of the two row-block pipelines at the ideal instance: for any contents `V` of the buffers when a region is
  entered, the region's output array ends holding, at row `p` and column `q`, the sum over `k` of the first input's
  `(p, k)` times the weight's `(k, q)`, plus the bias's `(0, q)`. Each grid point writes back the block of that
  function its rows name, and the twenty blocks cover the array.
-/
import proofs.«165880_j73478300500627_1_alg».proof.Proof.KIData
import proofs.«165880_j73478300500627_1_alg».proof.Proof.LibMatmulNN
import proofs.«165880_j73478300500627_1_alg».proof.Proof.LibAffineBlock
import Idealize.ShloMosaic.Lib.Pipeline.Value

set_option maxRecDepth 16384

noncomputable section

open scoped BigOperators

namespace Cert.KernelIdeal.HandValue

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

theorem hz : (![0, 0] : Fin 2 → Nat) = fun _ => 0 := funext fun a => by fin_cases a <;> rfl

/-! # The first pipeline: 384 columns -/

/-- The payload at an entry of the block: the block's row times the weight column, plus the bias entry — the matrix
    product into the zero accumulator plus the row-broadcast bias; at the ideal instance a truncation keeps the value
    and a shape cast to the same shape is the identity. -/
theorem pay0_apply (v0 : Vec Ideal S5000x128 .f32) (v2 : Vec Ideal S128x384 .f32) (v6 : Vec Ideal S1x384 .f32) (p : Fin 5000) (q : Fin 384) :
    k0_pay1 (F := Ideal) v0 v2 v6 (ix2 p q) = (∑ k : Fin 128, v0 (ix2 p k) * v2 (ix2 k q)) + v6 (ix2 (0 : Fin 1) q) := by
  unfold k0_pay1
  refine (Cert.LibAffineBlock.affine_apply dot_S5000x128_S128x384_S5000x384_1_0_0_1_n_n rfl rfl rfl rfl rfl rfl none _ _ _ _ p q).trans ?_
  simp only [truncf_apply, shapeCast_self]

/-- The whole output array as one function of the three input arrays: row `i 0` of the first times column `i 1` of the
    second, plus the bias entry of that column. -/
def G0 (X : S100000x128.Idx → EReal) (W : S128x384.Idx → EReal) (B : S1x384.Idx → EReal) : S100000x384.Idx → EReal := fun i =>
  (∑ k : Fin 128, X (ix2 (⟨(i 0).val, (i 0).isLt⟩ : Fin 100000) k) * W (ix2 k (⟨(i 1).val, (i 1).isLt⟩ : Fin 384)))
    + B (ix2 (0 : Fin 1) (⟨(i 1).val, (i 1).isLt⟩ : Fin 384))

theorem G0_apply (X : S100000x128.Idx → EReal) (W : S128x384.Idx → EReal) (B : S1x384.Idx → EReal) (p : Fin 100000) (q : Fin 384) :
    G0 X W B (ix2 p q) = (∑ k : Fin 128, X (ix2 p k) * W (ix2 k q)) + B (ix2 (0 : Fin 1) q) := rfl

/-- The payload of blocks that are restrictions of the arrays is the restriction of `G0`. -/
theorem point0 (X : S100000x128.Idx → EReal) (W : S128x384.Idx → EReal) (B : S1x384.Idx → EReal) (x0 : Vec Ideal S5000x128 .f32)
    (a : Fin 5000) (b : Fin 384) (p : Fin 100000) (h0 : ∀ k : Fin 128, x0 (ix2 a k) = X (ix2 p k)) :
    k0_pay1 (F := Ideal) x0 W B (ix2 a b) = G0 X W B (ix2 p b) := by
  rw [pay0_apply, G0_apply]
  congr 1
  exact Finset.sum_congr rfl fun k _ => by rw [h0 k]

/-- The printed index maps, decided over the 20 grid points: the row-block windows sit at block `t` of the rows, the
    weight and bias windows at their whole arrays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The region's three input arrays as it finds them, read as real-valued tables: the row-block operand, the weight
    matrix, the one-row bias. -/
abbrev inX0 (c : Dev nD) : S100000x128.Idx → EReal := V c main_arg0
abbrev inW0 (c : Dev nD) : S128x384.Idx → EReal := V c main_v8
abbrev inB0 (c : Dev nD) : S1x384.Idx → EReal := V c main_v12

/-- The weight window's block at any point is the whole weight array. -/
theorem blkW0 (c : Dev nD) (t : Fin cfg0.N) : iblk0 V c 1 t = (V c main_v8 : S128x384.Idx → EReal) := by
  obtain ⟨-, -, e10, e11, -, -, -, -⟩ := idx_facts0 t
  funext y
  show V c main_v8 (((cfg0.win 1).blk t).view.emb y) = V c main_v8 y
  refine congrArg _ ?_
  funext d; apply Fin.ext
  match d with
  | ⟨0, _⟩ => show win0_1.index t (0 : Fin 2) * 128 + 1 * (y 0).val = (y 0).val; omega
  | ⟨1, _⟩ => show win0_1.index t (1 : Fin 2) * 384 + 1 * (y 1).val = (y 1).val; omega

/-- The bias window's block at any point is the whole bias row. -/
theorem blkB0 (c : Dev nD) (t : Fin cfg0.N) : iblk0 V c 2 t = (V c main_v12 : S1x384.Idx → EReal) := by
  obtain ⟨-, -, -, -, e20, e21, -, -⟩ := idx_facts0 t
  funext y
  show V c main_v12 (((cfg0.win 2).blk t).view.emb y) = V c main_v12 y
  refine congrArg _ ?_
  funext d; apply Fin.ext
  match d with
  | ⟨0, _⟩ => show win0_2.index t (0 : Fin 2) * 1 + 1 * (y 0).val = (y 0).val; omega
  | ⟨1, _⟩ => show win0_2.index t (1 : Fin 2) * 384 + 1 * (y 1).val = (y 1).val; omega

/-- What point `t` writes back is block `t` of `G0` of the arrays as the region finds them. -/
theorem flushed0_eq (c : Dev nD) (t : Fin cfg0.N) :
    (dat0 (F := Ideal) V c).flushed 3 t
      = ((cfg0.win 3).blk t).view.read (Elt Ideal) (G0 (V c main_arg0) (V c main_v8) (V c main_v12)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x384) hz, View.ld_unit_zero (S := S1x384) hz]
  rw [blkW0, blkB0]
  obtain ⟨e00, e01, -, -, -, -, e30, e31⟩ := idx_facts0 t
  have ht : t.val < 20 := t.isLt
  funext j
  obtain ⟨a, b, rfl⟩ : ∃ (a : Fin 5000) (b : Fin 384), j = ix2 a b := ⟨j 0, j 1, eq_ix2 j⟩
  have hp : t.val * 5000 + a.val < 100000 := by have := a.isLt; omega
  show k0_pay1 (F := Ideal) (iblk0 V c 0 t) (V c main_v8) (V c main_v12) (ix2 a b)
    = G0 (V c main_arg0) (V c main_v8) (V c main_v12) (((cfg0.win 3).blk t).view.emb (ix2 a b))
  have hemb : ((cfg0.win 3).blk t).view.emb (ix2 a b) = (ix2 (⟨t.val * 5000 + a.val, hp⟩ : Fin 100000) b : S100000x384.Idx) := by
    funext d; apply Fin.ext
    match d with
    | ⟨0, _⟩ => show win0_3.index t (0 : Fin 2) * 5000 + 1 * a.val = t.val * 5000 + a.val; omega
    | ⟨1, _⟩ => show win0_3.index t (1 : Fin 2) * 384 + 1 * b.val = b.val; omega
  rw [hemb]
  refine point0 _ _ _ _ a b _ fun k => ?_
  show V c main_arg0 (((cfg0.win 0).blk t).view.emb (ix2 a k)) = V c main_arg0 (ix2 (⟨t.val * 5000 + a.val, hp⟩ : Fin 100000) k : S100000x128.Idx)
  refine congrArg _ ?_
  funext d; apply Fin.ext
  match d with
  | ⟨0, _⟩ => show win0_0.index t (0 : Fin 2) * 5000 + 1 * a.val = t.val * 5000 + a.val; omega
  | ⟨1, _⟩ => show win0_0.index t (1 : Fin 2) * 128 + 1 * k.val = k.val; omega

/-- An index of the array is in point `t`'s block iff each coordinate is in the block's range on its axis. -/
theorem mem_blk0 (t : Fin cfg0.N) (i : S100000x384.Idx) :
    i ∈ ((cfg0.win 3).blk t).view.set ↔ ∀ a : Fin 2, win0_3.index t a * S5000x384.size a ≤ (i a).val ∧ (i a).val < win0_3.index t a * S5000x384.size a + S5000x384.size a := by
  show i ∈ ((View.whole main_v13).slice (win0_3.rect t)).set ↔ _
  rw [View.set_slice_whole, Rect.mem_set_unit]
  exact Iff.rfl

/-- Every index of the output array is in the block of the point its row falls in. -/
theorem cover0 (i : S100000x384.Idx) : ∃ t : Fin cfg0.N, (cfg0.win 3).flush t = true ∧ i ∈ ((cfg0.win 3).blk t).view.set := by
  have hi0 : (i 0).val < 100000 := (i 0).isLt
  have hi1 : (i 1).val < 384 := (i 1).isLt
  have hq : (i 0).val / 5000 < 20 := by omega
  obtain ⟨-, -, -, -, -, -, e30, e31⟩ := idx_facts0 (⟨(i 0).val / 5000, hq⟩ : Fin cfg0.N)
  have e30' : win0_3.index (⟨(i 0).val / 5000, hq⟩ : Fin cfg0.N) (0 : Fin 2) = (i 0).val / 5000 := e30
  refine ⟨⟨(i 0).val / 5000, hq⟩, flush0_3 _, ?_⟩
  rw [mem_blk0]
  intro a
  match a with
  | ⟨0, _⟩ => show win0_3.index _ (0 : Fin 2) * 5000 ≤ (i 0).val ∧ (i 0).val < win0_3.index _ (0 : Fin 2) * 5000 + 5000; omega
  | ⟨1, _⟩ => show win0_3.index _ (1 : Fin 2) * 384 ≤ (i 1).val ∧ (i 1).val < win0_3.index _ (1 : Fin 2) * 384 + 384; omega

/-- The output array after the region is `G0` of the three input arrays as the region finds them. -/
theorem arr0_eq (c : Dev nD) :
    (dat0 (F := Ideal) V c).arrAt 3 cfg0.N = G0 (V c main_arg0) (V c main_v8) (V c main_v12) :=
  (dat0 (F := Ideal) V c).arrAt_eq_of_cover 3 (G0 (V c main_arg0) (V c main_v8) (V c main_v12)) (fun t _ => flushed0_eq V c t) cover0

/-- The output array after the region, entry by entry. -/
theorem final0 (c : Dev nD) (p : Fin 100000) (q : Fin 384) :
    (dat0 (F := Ideal) V c).arrAt 3 cfg0.N (ix2 p q)
      = (∑ k : Fin 128, inX0 V c (ix2 p k) * inW0 V c (ix2 k q)) + inB0 V c (ix2 (0 : Fin 1) q) := by
  rw [arr0_eq]; rfl

end

/-! # The second pipeline: 192 columns -/

/-- The payload at an entry of the block: the block's row times the weight column, plus the bias entry — the matrix
    product into the zero accumulator plus the row-broadcast bias; at the ideal instance a truncation keeps the value
    and a shape cast to the same shape is the identity. -/
theorem pay1_apply (v0 : Vec Ideal S5000x128 .f32) (v2 : Vec Ideal S128x192 .f32) (v6 : Vec Ideal S1x192 .f32) (p : Fin 5000) (q : Fin 192) :
    k1_pay1 (F := Ideal) v0 v2 v6 (ix2 p q) = (∑ k : Fin 128, v0 (ix2 p k) * v2 (ix2 k q)) + v6 (ix2 (0 : Fin 1) q) := by
  unfold k1_pay1
  refine (Cert.LibAffineBlock.affine_apply dot_S5000x128_S128x192_S5000x192_1_0_0_1_n_n rfl rfl rfl rfl rfl rfl none _ _ _ _ p q).trans ?_
  simp only [truncf_apply, shapeCast_self]

/-- The whole output array as one function of the three input arrays: row `i 0` of the first times column `i 1` of the
    second, plus the bias entry of that column. -/
def G1 (X : S100000x128.Idx → EReal) (W : S128x192.Idx → EReal) (B : S1x192.Idx → EReal) : S100000x192.Idx → EReal := fun i =>
  (∑ k : Fin 128, X (ix2 (⟨(i 0).val, (i 0).isLt⟩ : Fin 100000) k) * W (ix2 k (⟨(i 1).val, (i 1).isLt⟩ : Fin 192)))
    + B (ix2 (0 : Fin 1) (⟨(i 1).val, (i 1).isLt⟩ : Fin 192))

theorem G1_apply (X : S100000x128.Idx → EReal) (W : S128x192.Idx → EReal) (B : S1x192.Idx → EReal) (p : Fin 100000) (q : Fin 192) :
    G1 X W B (ix2 p q) = (∑ k : Fin 128, X (ix2 p k) * W (ix2 k q)) + B (ix2 (0 : Fin 1) q) := rfl

/-- The payload of blocks that are restrictions of the arrays is the restriction of `G1`. -/
theorem point1 (X : S100000x128.Idx → EReal) (W : S128x192.Idx → EReal) (B : S1x192.Idx → EReal) (x0 : Vec Ideal S5000x128 .f32)
    (a : Fin 5000) (b : Fin 192) (p : Fin 100000) (h0 : ∀ k : Fin 128, x0 (ix2 a k) = X (ix2 p k)) :
    k1_pay1 (F := Ideal) x0 W B (ix2 a b) = G1 X W B (ix2 p b) := by
  rw [pay1_apply, G1_apply]
  congr 1
  exact Finset.sum_congr rfl fun k _ => by rw [h0 k]

/-- The printed index maps, decided over the 20 grid points: the row-block windows sit at block `t` of the rows, the
    weight and bias windows at their whole arrays. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- The region's three input arrays as it finds them, read as real-valued tables: the row-block operand, the weight
    matrix, the one-row bias. -/
abbrev inX1 (c : Dev nD) : S100000x128.Idx → EReal := V c main_v65
abbrev inW1 (c : Dev nD) : S128x192.Idx → EReal := V c main_v74
abbrev inB1 (c : Dev nD) : S1x192.Idx → EReal := V c main_v78

/-- The weight window's block at any point is the whole weight array. -/
theorem blkW1 (c : Dev nD) (t : Fin cfg1.N) : iblk1 V c 1 t = (V c main_v74 : S128x192.Idx → EReal) := by
  obtain ⟨-, -, e10, e11, -, -, -, -⟩ := idx_facts1 t
  funext y
  show V c main_v74 (((cfg1.win 1).blk t).view.emb y) = V c main_v74 y
  refine congrArg _ ?_
  funext d; apply Fin.ext
  match d with
  | ⟨0, _⟩ => show win1_1.index t (0 : Fin 2) * 128 + 1 * (y 0).val = (y 0).val; omega
  | ⟨1, _⟩ => show win1_1.index t (1 : Fin 2) * 192 + 1 * (y 1).val = (y 1).val; omega

/-- The bias window's block at any point is the whole bias row. -/
theorem blkB1 (c : Dev nD) (t : Fin cfg1.N) : iblk1 V c 2 t = (V c main_v78 : S1x192.Idx → EReal) := by
  obtain ⟨-, -, -, -, e20, e21, -, -⟩ := idx_facts1 t
  funext y
  show V c main_v78 (((cfg1.win 2).blk t).view.emb y) = V c main_v78 y
  refine congrArg _ ?_
  funext d; apply Fin.ext
  match d with
  | ⟨0, _⟩ => show win1_2.index t (0 : Fin 2) * 1 + 1 * (y 0).val = (y 0).val; omega
  | ⟨1, _⟩ => show win1_2.index t (1 : Fin 2) * 192 + 1 * (y 1).val = (y 1).val; omega

/-- What point `t` writes back is block `t` of `G1` of the arrays as the region finds them. -/
theorem flushed1_eq (c : Dev nD) (t : Fin cfg1.N) :
    (dat1 (F := Ideal) V c).flushed 3 t
      = ((cfg1.win 3).blk t).view.read (Elt Ideal) (G1 (V c main_v65) (V c main_v74) (V c main_v78)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x192) hz, View.ld_unit_zero (S := S1x192) hz]
  rw [blkW1, blkB1]
  obtain ⟨e00, e01, -, -, -, -, e30, e31⟩ := idx_facts1 t
  have ht : t.val < 20 := t.isLt
  funext j
  obtain ⟨a, b, rfl⟩ : ∃ (a : Fin 5000) (b : Fin 192), j = ix2 a b := ⟨j 0, j 1, eq_ix2 j⟩
  have hp : t.val * 5000 + a.val < 100000 := by have := a.isLt; omega
  show k1_pay1 (F := Ideal) (iblk1 V c 0 t) (V c main_v74) (V c main_v78) (ix2 a b)
    = G1 (V c main_v65) (V c main_v74) (V c main_v78) (((cfg1.win 3).blk t).view.emb (ix2 a b))
  have hemb : ((cfg1.win 3).blk t).view.emb (ix2 a b) = (ix2 (⟨t.val * 5000 + a.val, hp⟩ : Fin 100000) b : S100000x192.Idx) := by
    funext d; apply Fin.ext
    match d with
    | ⟨0, _⟩ => show win1_3.index t (0 : Fin 2) * 5000 + 1 * a.val = t.val * 5000 + a.val; omega
    | ⟨1, _⟩ => show win1_3.index t (1 : Fin 2) * 192 + 1 * b.val = b.val; omega
  rw [hemb]
  refine point1 _ _ _ _ a b _ fun k => ?_
  show V c main_v65 (((cfg1.win 0).blk t).view.emb (ix2 a k)) = V c main_v65 (ix2 (⟨t.val * 5000 + a.val, hp⟩ : Fin 100000) k : S100000x128.Idx)
  refine congrArg _ ?_
  funext d; apply Fin.ext
  match d with
  | ⟨0, _⟩ => show win1_0.index t (0 : Fin 2) * 5000 + 1 * a.val = t.val * 5000 + a.val; omega
  | ⟨1, _⟩ => show win1_0.index t (1 : Fin 2) * 128 + 1 * k.val = k.val; omega

/-- An index of the array is in point `t`'s block iff each coordinate is in the block's range on its axis. -/
theorem mem_blk1 (t : Fin cfg1.N) (i : S100000x192.Idx) :
    i ∈ ((cfg1.win 3).blk t).view.set ↔ ∀ a : Fin 2, win1_3.index t a * S5000x192.size a ≤ (i a).val ∧ (i a).val < win1_3.index t a * S5000x192.size a + S5000x192.size a := by
  show i ∈ ((View.whole main_v79).slice (win1_3.rect t)).set ↔ _
  rw [View.set_slice_whole, Rect.mem_set_unit]
  exact Iff.rfl

/-- Every index of the output array is in the block of the point its row falls in. -/
theorem cover1 (i : S100000x192.Idx) : ∃ t : Fin cfg1.N, (cfg1.win 3).flush t = true ∧ i ∈ ((cfg1.win 3).blk t).view.set := by
  have hi0 : (i 0).val < 100000 := (i 0).isLt
  have hi1 : (i 1).val < 192 := (i 1).isLt
  have hq : (i 0).val / 5000 < 20 := by omega
  obtain ⟨-, -, -, -, -, -, e30, e31⟩ := idx_facts1 (⟨(i 0).val / 5000, hq⟩ : Fin cfg1.N)
  have e30' : win1_3.index (⟨(i 0).val / 5000, hq⟩ : Fin cfg1.N) (0 : Fin 2) = (i 0).val / 5000 := e30
  refine ⟨⟨(i 0).val / 5000, hq⟩, flush1_3 _, ?_⟩
  rw [mem_blk1]
  intro a
  match a with
  | ⟨0, _⟩ => show win1_3.index _ (0 : Fin 2) * 5000 ≤ (i 0).val ∧ (i 0).val < win1_3.index _ (0 : Fin 2) * 5000 + 5000; omega
  | ⟨1, _⟩ => show win1_3.index _ (1 : Fin 2) * 192 ≤ (i 1).val ∧ (i 1).val < win1_3.index _ (1 : Fin 2) * 192 + 192; omega

/-- The output array after the region is `G1` of the three input arrays as the region finds them. -/
theorem arr1_eq (c : Dev nD) :
    (dat1 (F := Ideal) V c).arrAt 3 cfg1.N = G1 (V c main_v65) (V c main_v74) (V c main_v78) :=
  (dat1 (F := Ideal) V c).arrAt_eq_of_cover 3 (G1 (V c main_v65) (V c main_v74) (V c main_v78)) (fun t _ => flushed1_eq V c t) cover1

/-- The output array after the region, entry by entry. -/
theorem final1 (c : Dev nD) (p : Fin 100000) (q : Fin 192) :
    (dat1 (F := Ideal) V c).arrAt 3 cfg1.N (ix2 p q)
      = (∑ k : Fin 128, inX1 V c (ix2 p k) * inW1 V c (ix2 k q)) + inB1 V c (ix2 (0 : Fin 1) q) := by
  rw [arr1_eq]; rfl

end

end Cert.KernelIdeal.HandValue

end
-- ==== Proof.LibRowOps.lean ====
/-
  A row gather and a row scatter-add read at an entry.

  "Sparse matrix times dense" is written as: take the rows `x[src]` of a dense `[N, C]` array at `E` row numbers,
  scale them, and add row `e` of the `[E, C]` result into row `dst[e]` of an `[N, C]` accumulator. In StableHLO the
  first step is a `gather` whose slices are whole rows (operand `[N, C]`, start indices `[E, 1]`, result `[E, C]`;
  offset axis 1, collapsed axis 0, start index map `[0]`, index vector on axis 1, slice sizes `[1, C]`), and the last
  step is a `scatter` with an `add` body whose windows are whole rows (operand `[N, C]`, scatter indices `[E, 1]`,
  updates `[E, C]`; update window axis 1, inserted window axis 0, scatter-dims-to-operand-dims `[0]`, index vector on
  axis 1). This file reads both at one entry, for all extents `N`, `E`, `C`:

  * `gather_rows_apply`: entry `(e, c)` of the gather is the operand's entry `(r, c)`, where `r` is the start index
    `idx (e, 0)` read as a signed integer and clamped into `[0, N − 1]`;
  * `scatterAdd_rows_apply`: at the ideal instance (the extended reals), entry `(n, c)` of the scatter-add is the
    operand's entry `(n, c)` plus the sum over `e : Fin E` of the update's entry `(e, c)` for those `e` whose scatter
    index `idx (e, 0)`, read as a signed integer, is `n`. An update whose row number is negative or at least `N`
    lands nowhere: it equals no `n : Fin N`.

  Each is stated twice: for the record `rowGatherDims` / `rowScatterDims` built from the extents (a literal record
  with the same lists is that record by unfolding, its decided conditions being a proof of the same proposition), and,
  `…_of_eq`, for ANY record whose lists are the ones above (each hypothesis closes by `rfl` on a literal record), the
  form to rewrite with.
-/
import Idealize.ShloMosaic.PureOps.Ideal.Laws
import Idealize.ShloMosaic.Lib.ValueIdx

noncomputable section

open scoped BigOperators

namespace Cert.LibRowOps

open Idealize.ShloMosaic Idealize.ShloMosaic.ValueIdx

variable {N E C w : Nat}

/-- Axis 1 is not the axis 0 the index maps name. -/
private theorem one_not_mem_zero : (1 : Fin 2) ∉ ([0] : List (Fin 2)) := by decide
/-- Of two axes, the ones other than axis 0 do not include axis 0 … -/
private theorem zero_not_mem_kept : (0 : Fin 2) ∉ (List.finRange 2).filter (fun a => a ∉ ([0] : List (Fin 2))) := by decide
/-- … and do include axis 1. -/
private theorem one_mem_kept : (1 : Fin 2) ∈ (List.finRange 2).filter (fun a => a ∉ ([0] : List (Fin 2))) := by decide
/-- The same with the (empty) list of batching axes appended to the removed ones. -/
private theorem one_mem_kept_append :
    (1 : Fin 2) ∈ (List.finRange 2).filter (fun a => a ∉ ([0] ++ [] : List (Fin 2))) := by decide

/-! ## The row scatter-add -/

/-- The dimension numbers of a scatter of whole rows: operand `[N, C]`, scatter indices `[E, 1]`, updates `[E, C]`;
    the updates' axis 1 is the window axis, the operand's axis 0 is the inserted one and the one the scatter index
    names, and the index vector lies along axis 1 of the scatter indices. Their conditions `wf` are decided on a
    program's literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c')` starts at the scatter index `idx (e, 0)`, read signed. -/
theorem scatter_start_zero (wf) (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which no scatter index names, every window starts at `0`. -/
theorem scatter_start_one (wf) (idx : IVec ⟨2, ![E, 1]⟩ w) (j : (⟨2, ![E, C]⟩ : Shape).Idx) :
    (rowScatterDims N E C wf).start j idx 1 = 0 := by
  unfold ScatterDims.start
  rw [dif_neg (show (1 : Fin 2) ∉ (rowScatterDims N E C wf).scatterDimsToOperandDims from one_not_mem_zero)]

/-- The row axis is inserted: the window coordinate there is `0`. -/
theorem scatter_window_zero (wf) (j : (⟨2, ![E, C]⟩ : Shape).Idx) :
    (rowScatterDims N E C wf).window j 0 = 0 := by
  unfold ScatterDims.window
  rw [dif_neg (show (0 : Fin 2) ∉ (rowScatterDims N E C wf).sKept from zero_not_mem_kept)]

/-- On the column axis the window coordinate of update `(e, c')` is its column `c'`. -/
theorem scatter_window_one (wf) (e : Fin E) (c' : Fin C) :
    (rowScatterDims N E C wf).window (ix2 e c') 1 = c'.val := by
  unfold ScatterDims.window
  rw [dif_pos (show (1 : Fin 2) ∈ (rowScatterDims N E C wf).sKept from one_mem_kept)]
  rfl

/-- WHERE AN UPDATE LANDS: update `(e, c')` lands at operand entry `(n, c)` exactly when its scatter index
    `idx (e, 0)`, read signed, is `n` and its column `c'` is `c`. (Start plus window coordinate is the signed index
    on the row axis and `c'` on the column axis; a row outside `[0, N)` is dropped, and is no `n : Fin N`.) -/
theorem scatter_resultIdx?_iff (wf) (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  have h0 := scatter_start_zero (N := N) wf idx e c'
  have h1 := scatter_start_one (N := N) wf idx (ix2 e c')
  have w0 := scatter_window_zero (N := N) wf (ix2 e c')
  have w1 := scatter_window_one (N := N) wf e c'
  unfold ScatterDims.resultIdx?
  split
  · -- the window is inside the operand: compare the two coordinates
    rename_i h
    have g0 := h 0
    have g1 := h 1
    rw [h0, w0] at g0
    rw [h1, w1] at g1
    rw [Option.some.injEq]
    constructor
    · intro hf
      have e0 : ((rowScatterDims N E C wf).start (ix2 e c') idx 0
          + (rowScatterDims N E C wf).window (ix2 e c') 0).toNat = n.val := congrArg (fun f => (f 0).val) hf
      have e1 : ((rowScatterDims N E C wf).start (ix2 e c') idx 1
          + (rowScatterDims N E C wf).window (ix2 e c') 1).toNat = c.val := congrArg (fun f => (f 1).val) hf
      rw [h0, w0] at e0
      rw [h1, w1] at e1
      exact ⟨by omega, Fin.ext (by omega)⟩
    · rintro ⟨hz, rfl⟩
      funext a
      refine Fin.ext ?_
      match a with
      | ⟨0, _⟩ =>
        show ((rowScatterDims N E C wf).start (ix2 e c') idx 0
          + (rowScatterDims N E C wf).window (ix2 e c') 0).toNat = n.val
        rw [h0, w0]; omega
      | ⟨1, _⟩ =>
        show ((rowScatterDims N E C wf).start (ix2 e c') idx 1
          + (rowScatterDims N E C wf).window (ix2 e c') 1).toNat = c'.val
        rw [h1, w1]; omega
  · -- the window leaves the operand: then the signed index is no row number
    rename_i h
    constructor
    · intro hf; exact absurd hf (by simp)
    · rintro ⟨hz, rfl⟩
      exfalso; apply h; intro a
      match a with
      | ⟨0, _⟩ =>
        show 0 ≤ (rowScatterDims N E C wf).start (ix2 e c') idx 0 + (rowScatterDims N E C wf).window (ix2 e c') 0
          ∧ (rowScatterDims N E C wf).start (ix2 e c') idx 0 + (rowScatterDims N E C wf).window (ix2 e c') 0 < (N : Int)
        rw [h0, w0]; have := n.isLt; omega
      | ⟨1, _⟩ =>
        show 0 ≤ (rowScatterDims N E C wf).start (ix2 e c') idx 1 + (rowScatterDims N E C wf).window (ix2 e c') 1
          ∧ (rowScatterDims N E C wf).start (ix2 e c') idx 1 + (rowScatterDims N E C wf).window (ix2 e c') 1 < (C : Int)
        rw [h1, w1]; have := c'.isLt; omega

/-- THE ROW SCATTER-ADD READ AT `(n, c)`, at the ideal instance: the operand's entry plus the sum, over the update
    rows `e`, of the update's entry `(e, c)` when the scatter index `idx (e, 0)`, read signed, is `n`, and `0`
    otherwise. (The sum over the updates that land at `(n, c)` is a double sum over `(e, c')`; by
    `scatter_resultIdx?_iff` the inner sum over `c'` has the one term `c' = c`.) -/
theorem scatterAdd_rows_apply {φ : FTy} (wf) (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c)
        + ∑ e : Fin E, if (idx (ix2 e ⟨0, Nat.one_pos⟩)).toInt = (n.val : Int) then upd (ix2 e c) else 0 := by
  show x (ix2 n c) + ∑ j ∈ Finset.univ.filter
    (fun j => (rowScatterDims N E C wf).resultIdx? j idx = some (ix2 n c)), upd j = _
  congr 1
  rw [Finset.sum_filter, sum_idx2]
  refine Finset.sum_congr rfl fun e _ => ?_
  by_cases hz : (idx (ix2 e ⟨0, Nat.one_pos⟩)).toInt = (n.val : Int)
  · simp only [scatter_resultIdx?_iff, hz, true_and, if_true, Finset.sum_ite_eq', Finset.mem_univ]
  · simp only [scatter_resultIdx?_iff, hz, false_and, if_false, Finset.sum_const_zero]

/-- A record with the row scatter's four lists IS `rowScatterDims`. -/
theorem eq_rowScatterDims (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) : ∃ wf, d = rowScatterDims N E C wf := by
  obtain ⟨uw, iw, sd, iv, wf⟩ := d
  simp only at huw hiw hsd hiv
  subst huw hiw hsd hiv
  exact ⟨wf, rfl⟩

/-- The row scatter-add read at `(n, c)`, for ANY record with the row scatter's four lists. -/
theorem scatterAdd_rows_apply_of_eq {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c)
        + ∑ e : Fin E, if (idx (ix2 e ⟨0, Nat.one_pos⟩)).toInt = (n.val : Int) then upd (ix2 e c) else 0 := by
  obtain ⟨wf, rfl⟩ := eq_rowScatterDims d huw hiw hsd hiv
  exact scatterAdd_rows_apply wf x idx upd n c

/-! ## The row gather -/

/-- The dimension numbers of a gather of whole rows: operand `[N, C]`, start indices `[E, 1]`, result `[E, C]`; the
    result's axis 1 is the offset axis, the operand's axis 0 is collapsed and is the one the start index names, the
    index vector lies along axis 1 of the start indices, and a slice is one row, `[1, C]`. Their conditions `wf` are
    decided on a program's literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx (e, 0)`, read signed and clamped into `[0, N − 1]`, and
    column `c`. (On the row axis the operand index is the clamped start, the axis being collapsed and not a batching
    one; on the column axis the start is `0` and the offset coordinate is `c`.) -/
theorem gather_rows_apply {α : Type} (hN : 0 < N) (wf) (x : (⟨2, ![N, C]⟩ : Shape).Idx → α)
    (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c)
        ⟨List.idxOf (0 : Fin 2) (rowGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap from one_not_mem_zero)]
    have ho : (rowGatherDims N E C wf).offCoord (ix2 e c) 1 = c.val := by
      unfold GatherDims.offCoord
      rw [dif_pos (show (1 : Fin 2) ∈ (rowGatherDims N E C wf).sKept from one_mem_kept_append)]
      rfl
    rw [hs, ho]; omega

/-- A record with the row gather's seven fields IS `rowGatherDims`. -/
theorem eq_rowGatherDims (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) : ∃ wf, d = rowGatherDims N E C wf := by
  obtain ⟨od, cd, ob, sb, sm, iv, ss, wf⟩ := d
  simp only at hod hcd hob hsb hsm hiv hss
  subst hod hcd hob hsb hsm hiv hss
  exact ⟨wf, rfl⟩

/-- The row gather read at `(e, c)`, for ANY record with the row gather's seven fields. -/
theorem gather_rows_apply_of_eq {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ w)
    (e : Fin E) (c : Fin C) :
    Host.gather d x idx (ix2 e c)
      = x (ix2 ⟨min (idx (ix2 e ⟨0, Nat.one_pos⟩)).toInt.toNat (N - 1), by omega⟩ c) := by
  obtain ⟨wf, rfl⟩ := eq_rowGatherDims d hod hcd hob hsb hsm hiv hss
  exact gather_rows_apply hN wf x idx e c

end Cert.LibRowOps
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«165880_j73478300500627_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostSliceProduct.lean ====
/-
  A host matrix product against one matrix of a stack, read at an entry, at the ideal instance.

  `x @ W[q]` on the host lowers to: the stack `W : [Q, K, N]` sliced at leading offset `q` with extent one, the
  `[1, K, N]` slice reshaped to `[K, N]`, and a plain `dot_general` of `x : [M, K]` with it. At `(n, j)` the result
  is `∑ k, x (n, k) · W (q, k, j)`. Stated for any plain dimension-number record and any extents.
-/
import proofs.«165880_j73478300500627_1_alg».proof.Proof.LibDotGeneralNN
import Idealize.ShloMosaic.Lib.Pipeline.Value
import Idealize.ShloMosaic.Lib.ValueLayout

noncomputable section

open scoped BigOperators

namespace Cert.LibHostSliceProduct

open Idealize.ShloMosaic Idealize.ShloMosaic.ValueIdx

variable {M K N Q : Nat} {φ₁ φ₂ : FTy}

/-- The slice at leading offset `o`, reshaped, at `(k, j)` is the stack at `(q, k, j)` when `q` is the offset. -/
theorem sliceCast_apply {α : Type} (W : (⟨3, ![Q, K, N]⟩ : Shape).Idx → α) (o : Nat) (q : Fin Q) (hq : q.val = o)
    (hs : (⟨3, ![Q, K, N]⟩ : Shape).Slices ![o, 0, 0] ⟨3, ![1, K, N]⟩)
    (hc : (⟨3, ![1, K, N]⟩ : Shape).ShapeCasts ⟨2, ![K, N]⟩) (k : Fin K) (j : Fin N) :
    shapeCast ⟨2, ![K, N]⟩ (extractStridedSlice ⟨3, ![1, K, N]⟩ ![o, 0, 0] W hs) hc (ix2 k j) = W (ix3 q k j) := by
  rw [shapeCast_1ab_ab_apply _ hc k j]
  exact extractStridedSlice_apply _ W hs (ix3 (0 : Fin 1) k j) (ix3 q k j) (fun a => by
    match a with
    | ⟨0, _⟩ => show q.val = o + 0; omega
    | ⟨1, _⟩ => exact (Nat.zero_add _).symm
    | ⟨2, _⟩ => exact (Nat.zero_add _).symm)

/-- The host product with matrix `q` of the stack, at `(n, j)`. -/
theorem hostSliceProduct_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨3, ![Q, K, N]⟩ φ₂) (o : Nat) (q : Fin Q) (hq : q.val = o)
    (hs : (⟨3, ![Q, K, N]⟩ : Shape).Slices ![o, 0, 0] ⟨3, ![1, K, N]⟩)
    (hc : (⟨3, ![1, K, N]⟩ : Shape).ShapeCasts ⟨2, ![K, N]⟩) (n : Fin M) (j : Fin N) :
    Host.dotGeneral d prec x (shapeCast ⟨2, ![K, N]⟩ (extractStridedSlice ⟨3, ![1, K, N]⟩ ![o, 0, 0] W hs) hc) (ix2 n j)
      = ∑ k : Fin K, x (ix2 n k) * W (ix3 q k j) := by
  simp only [Host.dotGeneral]
  rw [Cert.LibDotGeneralNN.dotGeneral_apply d hlc hrc hln hrn hlb hrb]
  refine Finset.sum_congr rfl fun k _ => ?_
  rw [sliceCast_apply W o q hq hs hc k j]

end Cert.LibHostSliceProduct

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«165880_j73478300500627_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibGatherProject.lean ====
/-
  Why projecting before gathering gives the same messages.

  Right-multiplying by a weight matrix acts on columns, gathering a row and zeroing a row act on rows, so
  `where(mask, (X · W)[src], 0) = where(mask, X[src], 0) · W`: at an edge inside the mask both sides are the row
  `X[src] · W` (the combined product's block carries a zero bias, and `v + 0 = v`), at an edge outside it both are
  zero, because a sum of products with zero rows is zero on the extended reals whatever the weights. No finiteness is
  used. The root block is the root product plus the root bias as it stands.
-/
import proofs.«165880_j73478300500627_1_alg».proof.Proof.LibRowOps
import proofs.«165880_j73478300500627_1_alg».proof.Proof.LibHostSliceProduct
import proofs.«165880_j73478300500627_1_alg».proof.Proof.LibHostAffine
import Idealize.ShloMosaic.Lib.Pipeline.Value
import Idealize.ShloMosaic.Lib.ValueIdx

noncomputable section

open scoped BigOperators

namespace Cert.RgcnBridge

open Idealize.ShloMosaic Idealize.ShloMosaic.ValueIdx

variable {N E K C Q : Nat}

/-- A masked row times a matrix column: the mask may be applied after the sum. -/
theorem masked_sum (b : BitVec 1) (f w : Fin K → EReal) :
    Scalar.select b ((∑ k : Fin K, f k * w k) + 0) 0 = ∑ k : Fin K, Scalar.select b (f k) 0 * w k := by
  rcases BitVec.eq_zero_or_eq_one b with h | h
  · subst h
    simp only [select_zero, zero_mul, Finset.sum_const_zero]
  · subst h
    simp only [select_one, add_zero]

/-- A per-edge bit broadcast to a column and then over the channels reads, at `(e, j)`, the edge's bit. -/
theorem colmask_apply {α : Type} (mk : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2)) (e : Fin E) (j : Fin C) :
    broadcastInDim ⟨2, ![E, C]⟩ (![0, 1] : Fin 2 → Fin 2) h2 (broadcastInDim ⟨2, ![E, 1]⟩ (![0] : Fin 1 → Fin 2) h1 mk) (ix2 e j)
      = mk (ix1 e) := by
  rw [broadcastInDim_apply (![0, 1] : Fin 2 → Fin 2) h2 _ (ix2 e j) (ix2 e (0 : Fin 1)) (fun a => by
    match a with
    | ⟨0, _⟩ =>
      show e.val = if E = 1 then 0 else e.val
      split
      · have := e.isLt; omega
      · rfl
    | ⟨1, _⟩ => rfl)]
  exact broadcastInDim_apply (![0] : Fin 1 → Fin 2) h1 mk (ix2 e (0 : Fin 1)) (ix1 e) (fun a => by
    match a with
    | ⟨0, _⟩ =>
      show e.val = if E = 1 then 0 else e.val
      split
      · have := e.isLt; omega
      · rfl)

/-- THE MESSAGES. `B` is a column block of the combined product whose weight block is matrix `q` of the stack `W`
    and whose bias block is zero; `mk e` says whether edge `e` is in the mask. -/
theorem msg_eq (hN : 0 < N)
    (g : GatherDims ⟨2, ![N, C]⟩ ⟨2, ![E, 1]⟩ ⟨2, ![E, C]⟩)
    (hod : g.offsetDims = [1]) (hcd : g.collapsedSliceDims = [0]) (hob : g.operandBatchingDims = [])
    (hsb : g.startIndicesBatchingDims = []) (hsm : g.startIndexMap = [0]) (hiv : g.indexVectorDim = 1)
    (hss : g.sliceSizes = ![1, C])
    (g' : GatherDims ⟨2, ![N, K]⟩ ⟨2, ![E, 1]⟩ ⟨2, ![E, K]⟩)
    (hod' : g'.offsetDims = [1]) (hcd' : g'.collapsedSliceDims = [0]) (hob' : g'.operandBatchingDims = [])
    (hsb' : g'.startIndicesBatchingDims = []) (hsm' : g'.startIndexMap = [0]) (hiv' : g'.indexVectorDim = 1)
    (hss' : g'.sliceSizes = ![1, K])
    (d : DotDims ⟨2, ![E, K]⟩ ⟨2, ![K, C]⟩ ⟨2, ![E, C]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![N, K]⟩ .f32) (W : FVec Ideal ⟨3, ![Q, K, C]⟩ .f32) (o : Nat) (q : Fin Q) (hq : q.val = o)
    (hs : (⟨3, ![Q, K, C]⟩ : Shape).Slices ![o, 0, 0] ⟨3, ![1, K, C]⟩)
    (hc : (⟨3, ![1, K, C]⟩ : Shape).ShapeCasts ⟨2, ![K, C]⟩)
    (B : FVec Ideal ⟨2, ![N, C]⟩ .f32)
    (hB : ∀ (n : Fin N) (j : Fin C), B (ix2 n j) = (∑ k : Fin K, X (ix2 n k) * W (ix3 q k j)) + 0)
    (idx : IVec ⟨2, ![E, 1]⟩ 32) (mk : Fin E → BitVec 1)
    (cm : IVec ⟨2, ![E, C]⟩ 1) (hcm : ∀ (e : Fin E) (j : Fin C), cm (ix2 e j) = mk e)
    (cm' : IVec ⟨2, ![E, K]⟩ 1) (hcm' : ∀ (e : Fin E) (k : Fin K), cm' (ix2 e k) = mk e)
    (z : FVec Ideal ⟨2, ![E, C]⟩ .f32) (hz : ∀ i, z i = 0)
    (z' : FVec Ideal ⟨2, ![E, K]⟩ .f32) (hz' : ∀ i, z' i = 0) :
    select cm (Host.gather g B idx) z
      = Host.dotGeneral (F := Ideal) d none (select cm' (Host.gather g' X idx) z')
          (shapeCast ⟨2, ![K, C]⟩ (extractStridedSlice ⟨3, ![1, K, C]⟩ ![o, 0, 0] W hs) hc) := by
  funext i
  obtain ⟨e, j, rfl⟩ : ∃ (e : Fin E) (j : Fin C), i = ix2 e j := ⟨i 0, i 1, eq_ix2 i⟩
  rw [Cert.LibHostSliceProduct.hostSliceProduct_apply d hlc hrc hln hrn hlb hrb none _ W o q hq hs hc e j]
  rw [select_apply, hcm e j, hz, Cert.LibRowOps.gather_rows_apply_of_eq hN g hod hcd hob hsb hsm hiv hss B idx e j, hB]
  rw [masked_sum]
  refine Finset.sum_congr rfl fun k _ => ?_
  rw [select_apply, hcm' e k, hz', Cert.LibRowOps.gather_rows_apply_of_eq hN g' hod' hcd' hob' hsb' hsm' hiv' hss' X idx e k]

/-- THE ROOT TERM: a block of the combined product whose weight block is `Wr` and whose bias block is `b` is the host's
    product plus the bias vector broadcast over the rows. -/
theorem root_eq
    (d : DotDims ⟨2, ![N, K]⟩ ⟨2, ![K, C]⟩ ⟨2, ![N, C]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![N, K]⟩ .f32) (Wr : FVec Ideal ⟨2, ![K, C]⟩ .f32) (b : FVec Ideal ⟨1, ![C]⟩ .f32)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (B : FVec Ideal ⟨2, ![N, C]⟩ .f32)
    (hB : ∀ (n : Fin N) (j : Fin C), B (ix2 n j) = (∑ k : Fin K, X (ix2 n k) * Wr (ix2 k j)) + b (ix1 j)) :
    B = addf (F := Ideal) (Host.dotGeneral (F := Ideal) d none X Wr)
        (broadcastInDim ⟨2, ![N, C]⟩ (![0, 1] : Fin 2 → Fin 2) h2 (broadcastInDim ⟨2, ![1, C]⟩ (![1] : Fin 1 → Fin 2) h1 b)) := by
  funext i
  obtain ⟨n, j, rfl⟩ : ∃ (n : Fin N) (j : Fin C), i = ix2 n j := ⟨i 0, i 1, eq_ix2 i⟩
  rw [hB, Cert.LibHostAffine.affine_apply d hlc hrc hln hrn hlb hrb none X Wr b h1 h2 n j]

end Cert.RgcnBridge

end
-- ==== Proof.LibConcat3.lean ====
/-
  Concatenations of three pieces of one shape.

  Two such concatenations agree when the pieces agree one by one (the congruence that lets a read-back of a host
  program be continued inside the three operands of a `stablehlo.concatenate`, where the one-pass rewriting stops);
  a concatenation read at an index inside piece `r` is that piece at the index with the axis coordinate moved back
  by `r` extents; and a scalar zero constant broadcast over any shape is zero at every index, at the ideal instance.
-/
import Idealize.ShloMosaic.Lib.Pipeline.Value
import Idealize.ShloMosaic.Lib.ValueIdx
import Idealize.ShloMosaic.PureOps.Ideal.Laws

noncomputable section

namespace Cert.LibConcat3

open Idealize.ShloMosaic Idealize.ShloMosaic.ValueIdx

/-- Two concatenations of three pieces agree when the pieces agree one by one. -/
theorem concat3_congr {α : Type} {t s : Shape} (a : Fin t.rank) (x1 x2 x3 y1 y2 y3 : s.Idx → α)
    (h : Shape.Concatenates (([⟨s, x1⟩, ⟨s, x2⟩, ⟨s, x3⟩] : List ((s : Shape) × (s.Idx → α))).map (·.1)) t a)
    (e1 : x1 = y1) (e2 : x2 = y2) (e3 : x3 = y3) :
    concatenate t a [⟨s, x1⟩, ⟨s, x2⟩, ⟨s, x3⟩] h = concatenate t a [⟨s, y1⟩, ⟨s, y2⟩, ⟨s, y3⟩] h := by
  subst e1 e2 e3; rfl

/-- A concatenation of three pieces of one shape read in piece `r`. -/
theorem concat3_apply {α : Type} {t s : Shape} (a : Fin t.rank) (x0 x1 x2 : s.Idx → α)
    (h : Shape.Concatenates (([⟨s, x0⟩, ⟨s, x1⟩, ⟨s, x2⟩] : List ((s : Shape) × (s.Idx → α))).map (·.1)) t a)
    (hr : s.rank = t.rank) (r : Fin 3) (j : t.Idx) (i : s.Idx)
    (hi : ∀ b : Fin s.rank, b.cast hr ≠ a → (i b).val = (j (b.cast hr)).val)
    (ha : r.val * s.size (a.cast hr.symm) + (i (a.cast hr.symm)).val = (j a).val) :
    concatenate t a [⟨s, x0⟩, ⟨s, x1⟩, ⟨s, x2⟩] h j = (![x0, x1, x2] r) i := by
  match r with
  | ⟨0, _⟩ =>
    exact concatenate_apply_piece a _ h j 0 (by simp) s x0 rfl hr 0 rfl i hi (by simpa using ha)
  | ⟨1, _⟩ =>
    refine concatenate_apply_piece a _ h j 1 (by simp) s x1 rfl hr (s.size (a.cast hr.symm)) ?_ i hi (by simpa using ha)
    simp [dif_pos hr]
  | ⟨2, _⟩ =>
    refine concatenate_apply_piece a _ h j 2 (by simp) s x2 rfl hr (s.size (a.cast hr.symm) + s.size (a.cast hr.symm)) ?_ i hi (by
      have := ha; simp only at this; omega)
    simp [dif_pos hr]

/-- A scalar zero constant broadcast over any shape is zero at every index. -/
theorem zeros_apply {s : Shape} (h : (⟨0, ![]⟩ : Shape).BroadcastsInDim s (![] : Fin 0 → Fin s.rank)) (i : s.Idx) :
    broadcastInDim s (![] : Fin 0 → Fin s.rank) h (constant (F := Ideal) ⟨0, ![]⟩ .f32 0x00000000#32) i = 0 := by
  rw [broadcastInDim_apply (![] : Fin 0 → Fin s.rank) h _ i ix0 (fun a => a.elim0), constant_apply, Ideal.ofBits_zero_f32]

end Cert.LibConcat3

end
-- ==== Proof.KIHost.lean ====
/-
  The host side of the two-layer relational graph convolution, read as pure functions at the ideal instance.

  A layer's host part takes the combined product `Y = X · [W_root | W_rel0 | W_rel1] + [b | 0 | 0]`, cuts it into its
  three column blocks, and for each relation r gathers block r+1 at the (wrapped) source row of every edge, zeroes
  the rows of edges of another type, adds the rows up per destination node and divides by the clamped number of
  edges of type r arriving there; the sum of the root block and the two means is the layer's output. The pieces
  that do not depend on how the per-edge messages were computed are named here once, so that the same names read
  the reference program's text.
-/
import proofs.«165880_j73478300500627_1_alg».proof.Proof.Gen.KernelIdeal.Regions
import Idealize.ShloMosaic.Lib.StableHlo.Run
import proofs.«165880_j73478300500627_1_alg».proof.Proof.LibConcat3
import Idealize.ShloMosaic.PureOps.Ideal

noncomputable section

namespace Cert.KernelIdeal.HostRead

open Cert.KernelIdeal Cert.KernelIdeal.Gen Idealize.ShloMosaic Idealize.ShloMosaic.TcCoe Idealize.SL.Sem Idealize.ShloMosaic.StableHlo
open Cert.LibConcat3 (concat3_congr)

/-! ## The edge lists -/

/-- The source rows with negative entries wrapped around, as a column of start indices. -/
def nidx (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Which edges have type `r`. -/
def mask (r : BitVec 32) (et : (⟨S1600000, .i32⟩ : BufTy).Contents (Elt Ideal)) : (⟨S1600000, .i1⟩ : BufTy).Contents (Elt Ideal) :=
  cmpi .eq et (broadcastInDim S1600000 ![] bcast_S_S1600000 (constantI S_ 32 r))

/-! ## Layer one (128 output channels) -/

/-- Rows of edges outside the mask zeroed. -/
def wh128 (mk : (⟨S1600000, .i1⟩ : BufTy).Contents (Elt Ideal)) (v : (⟨S1600000x128, .f32⟩ : BufTy).Contents (Elt Ideal)) :
    (⟨S1600000x128, .f32⟩ : BufTy).Contents (Elt Ideal) :=
  select (broadcastInDim S1600000x128 ![0, 1] bcast_S1600000x1_S1600000x128_0_1 (broadcastInDim S1600000x1 ![0] bcast_S1600000_S1600000x1_0 mk)) v
    (broadcastInDim S1600000x128 ![] bcast_S_S1600000x128 (id (constant (F := Ideal) S_ .f32 0x00000000#32)))

/-- The per-destination mean of the masked messages: their sum over the clamped count of masked edges. -/
def mean128 (dst : (⟨S1600000, .i32⟩ : BufTy).Contents (Elt Ideal)) (mk : (⟨S1600000, .i1⟩ : BufTy).Contents (Elt Ideal))
    (M : (⟨S1600000x128, .f32⟩ : BufTy).Contents (Elt Ideal)) : (⟨S100000x128, .f32⟩ : BufTy).Contents (Elt Ideal) :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst) M)
    (broadcastInDim S100000x128 ![0, 1] bcast_S100000x1_S100000x128_0_1 (broadcastInDim S100000x1 ![0] bcast_S100000_S100000x1_0
      (maximumf (F := Ideal)
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 dst) (uitofp (F := Ideal) .f32 mk))
        (broadcastInDim S100000 ![] bcast_S_S100000 (constant (F := Ideal) S_ .f32 0x3F800000#32)))))

/-- The layer's output from its root term and the two relations' messages, then the positive part. -/
def tail128 (root : (⟨S100000x128, .f32⟩ : BufTy).Contents (Elt Ideal)) (M0 M1 : (⟨S1600000x128, .f32⟩ : BufTy).Contents (Elt Ideal))
    (dst et : (⟨S1600000, .i32⟩ : BufTy).Contents (Elt Ideal)) : (⟨S100000x128, .f32⟩ : BufTy).Contents (Elt Ideal) :=
  maximumf (F := Ideal)
    (addf (F := Ideal) (addf (F := Ideal) root (mean128 dst (mask 0#32 et) M0)) (mean128 dst (mask 1#32 et) M1))
    (broadcastInDim S100000x128 ![] bcast_S_S100000x128 (constant (F := Ideal) S_ .f32 0x00000000#32))

/-- Column block `o / 128` of the combined product. -/
def blk128_0 (Y : (⟨S100000x384, .f32⟩ : BufTy).Contents (Elt Ideal)) : (⟨S100000x128, .f32⟩ : BufTy).Contents (Elt Ideal) :=
  extractStridedSlice S100000x128 ![0, 0] Y slices_S100000x384_S100000x128_0_0
def blk128_1 (Y : (⟨S100000x384, .f32⟩ : BufTy).Contents (Elt Ideal)) : (⟨S100000x128, .f32⟩ : BufTy).Contents (Elt Ideal) :=
  extractStridedSlice S100000x128 ![0, 128] Y slices_S100000x384_S100000x128_0_128
def blk128_2 (Y : (⟨S100000x384, .f32⟩ : BufTy).Contents (Elt Ideal)) : (⟨S100000x128, .f32⟩ : BufTy).Contents (Elt Ideal) :=
  extractStridedSlice S100000x128 ![0, 256] Y slices_S100000x384_S100000x128_0_256

/-- The first layer's hidden features from the combined product and the edge lists. -/
def hidden (Y : (⟨S100000x384, .f32⟩ : BufTy).Contents (Elt Ideal)) (src dst et : (⟨S1600000, .i32⟩ : BufTy).Contents (Elt Ideal)) :
    (⟨S100000x128, .f32⟩ : BufTy).Contents (Elt Ideal) :=
  tail128 (blk128_0 Y)
    (wh128 (mask 0#32 et) (Host.gather gather_S100000x128_S1600000x1_S1600000x128_1_0_n_n_0_1_1128 (blk128_1 Y) (nidx src)))
    (wh128 (mask 1#32 et) (Host.gather gather_S100000x128_S1600000x1_S1600000x128_1_0_n_n_0_1_1128 (blk128_2 Y) (nidx src)))
    dst et

set_option maxHeartbeats 2000000 in
/-- The host stretch between the two launches computes `hidden` of what the first launch left. -/
theorem hidden_read (W : Valuation τ sig (Elt Ideal)) :
    StableHlo.after (hostOps1_5 (F := Ideal)) (StableHlo.after hostOps1_4 (StableHlo.after hostOps1_3 (StableHlo.after hostOps1_2
      (StableHlo.after hostOps1_1 (StableHlo.after hostOps1 W))))) main_v65
      = hidden (W main_v13) (W main_v1) (W main_v3) (W main_arg2) := by
  after_results_simp
  rfl

/-! ## Layer two (64 output channels) and the row normalization -/

def wh64 (mk : (⟨S1600000, .i1⟩ : BufTy).Contents (Elt Ideal)) (v : (⟨S1600000x64, .f32⟩ : BufTy).Contents (Elt Ideal)) :
    (⟨S1600000x64, .f32⟩ : BufTy).Contents (Elt Ideal) :=
  select (broadcastInDim S1600000x64 ![0, 1] bcast_S1600000x1_S1600000x64_0_1 (broadcastInDim S1600000x1 ![0] bcast_S1600000_S1600000x1_0 mk)) v
    (broadcastInDim S1600000x64 ![] bcast_S_S1600000x64 (id (constant (F := Ideal) S_ .f32 0x00000000#32)))

def mean64 (dst : (⟨S1600000, .i32⟩ : BufTy).Contents (Elt Ideal)) (mk : (⟨S1600000, .i1⟩ : BufTy).Contents (Elt Ideal))
    (M : (⟨S1600000x64, .f32⟩ : BufTy).Contents (Elt Ideal)) : (⟨S100000x64, .f32⟩ : BufTy).Contents (Elt Ideal) :=
  Host.divf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst) M)
    (broadcastInDim S100000x64 ![0, 1] bcast_S100000x1_S100000x64_0_1 (broadcastInDim S100000x1 ![0] bcast_S100000_S100000x1_0
      (maximumf (F := Ideal)
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 dst) (uitofp (F := Ideal) .f32 mk))
        (broadcastInDim S100000 ![] bcast_S_S100000 (constant (F := Ideal) S_ .f32 0x3F800000#32)))))

/-- Each row divided by its Euclidean length, the length clamped below. -/
def rownorm (x : (⟨S100000x64, .f32⟩ : BufTy).Contents (Elt Ideal)) : (⟨S100000x64, .f32⟩ : BufTy).Contents (Elt Ideal) :=
  Host.divf (F := Ideal) x
    (broadcastInDim S100000x64 ![0, 1] bcast_S100000x1_S100000x64_0_1
      (maximumf (F := Ideal)
        (Host.sqrt (F := Ideal) (broadcastInDim S100000x1 ![0] bcast_S100000_S100000x1_0
          (Host.reduceAdd (F := Ideal) (mulf (F := Ideal) x x) (constant (F := Ideal) S_ .f32 0x00000000#32) reducesTo_S100000x64_S100000_d1 h_S_)))
        (broadcastInDim S100000x1 ![] bcast_S_S100000x1 (constant (F := Ideal) S_ .f32 0x2B8CBCCC#32))))

/-- The second layer's output from its root term and messages, normalized. -/
def tail64 (root : (⟨S100000x64, .f32⟩ : BufTy).Contents (Elt Ideal)) (M0 M1 : (⟨S1600000x64, .f32⟩ : BufTy).Contents (Elt Ideal))
    (dst et : (⟨S1600000, .i32⟩ : BufTy).Contents (Elt Ideal)) : (⟨S100000x64, .f32⟩ : BufTy).Contents (Elt Ideal) :=
  rownorm (addf (F := Ideal) (φ := .f32) (addf (F := Ideal) (φ := .f32) root (mean64 dst (mask 0#32 et) M0)) (mean64 dst (mask 1#32 et) M1))

def blk64_0 (Y : (⟨S100000x192, .f32⟩ : BufTy).Contents (Elt Ideal)) : (⟨S100000x64, .f32⟩ : BufTy).Contents (Elt Ideal) :=
  extractStridedSlice S100000x64 ![0, 0] Y slices_S100000x192_S100000x64_0_0
def blk64_1 (Y : (⟨S100000x192, .f32⟩ : BufTy).Contents (Elt Ideal)) : (⟨S100000x64, .f32⟩ : BufTy).Contents (Elt Ideal) :=
  extractStridedSlice S100000x64 ![0, 64] Y slices_S100000x192_S100000x64_0_64
def blk64_2 (Y : (⟨S100000x192, .f32⟩ : BufTy).Contents (Elt Ideal)) : (⟨S100000x64, .f32⟩ : BufTy).Contents (Elt Ideal) :=
  extractStridedSlice S100000x64 ![0, 128] Y slices_S100000x192_S100000x64_0_128

/-- The program's result from the second combined product and the edge lists. -/
def output (Y : (⟨S100000x192, .f32⟩ : BufTy).Contents (Elt Ideal)) (src dst et : (⟨S1600000, .i32⟩ : BufTy).Contents (Elt Ideal)) :
    (⟨S100000x64, .f32⟩ : BufTy).Contents (Elt Ideal) :=
  tail64 (blk64_0 Y)
    (wh64 (mask 0#32 et) (Host.gather gather_S100000x64_S1600000x1_S1600000x64_1_0_n_n_0_1_164 (blk64_1 Y) (nidx src)))
    (wh64 (mask 1#32 et) (Host.gather gather_S100000x64_S1600000x1_S1600000x64_1_0_n_n_0_1_164 (blk64_2 Y) (nidx src)))
    dst et

set_option maxHeartbeats 2000000 in
/-- The host stretch after the second launch computes `output` of what that launch left. -/
theorem output_read (W : Valuation τ sig (Elt Ideal)) :
    StableHlo.after (hostOps2_4 (F := Ideal)) (StableHlo.after hostOps2_3 (StableHlo.after hostOps2_2
      (StableHlo.after hostOps2_1 (StableHlo.after hostOps2 W)))) main_v138
      = output (W main_v79) (W main_v67) (W main_v69) (W main_arg2) := by
  after_results_simp
  rfl

/-! ## The edge lists and the combined weights, as the host prepares them -/

/-- Row `o` of the edge index as a vector. -/
def edgeRow0 (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000
def edgeRow1 (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- Layer one's combined weights `[W_root | W_rel0 | W_rel1]`. -/
def wcomb1 (Wroot : (⟨S128x128, .f32⟩ : BufTy).Contents (Elt Ideal)) (Wrel : (⟨S2x128x128, .f32⟩ : BufTy).Contents (Elt Ideal)) :
    (⟨S128x384, .f32⟩ : BufTy).Contents (Elt Ideal) :=
  concatenate S128x384 1 [⟨S128x128, Wroot⟩,
    ⟨S128x128, shapeCast S128x128 (extractStridedSlice S1x128x128 ![0, 0, 0] Wrel slices_S2x128x128_S1x128x128_0_0_0) shapeCasts_S1x128x128_S128x128⟩,
    ⟨S128x128, shapeCast S128x128 (extractStridedSlice S1x128x128 ![1, 0, 0] Wrel slices_S2x128x128_S1x128x128_1_0_0) shapeCasts_S1x128x128_S128x128⟩]
    concatenates_S128x128_S128x128_S128x128_S128x384_d1
/-- Layer one's combined bias row `[b | 0 | 0]`. -/
def bcomb1 (b : (⟨S128, .f32⟩ : BufTy).Contents (Elt Ideal)) : (⟨S1x384, .f32⟩ : BufTy).Contents (Elt Ideal) :=
  shapeCast S1x384 (concatenate S384 0 [⟨S128, b⟩,
    ⟨S128, broadcastInDim S128 ![] bcast_S_S128 (constant (F := Ideal) S_ .f32 0x00000000#32)⟩,
    ⟨S128, broadcastInDim S128 ![] bcast_S_S128 (constant (F := Ideal) S_ .f32 0x00000000#32)⟩]
    concatenates_S128_S128_S128_S384_d0) shapeCasts_S384_S1x384
def wcomb2 (Wroot : (⟨S128x64, .f32⟩ : BufTy).Contents (Elt Ideal)) (Wrel : (⟨S2x128x64, .f32⟩ : BufTy).Contents (Elt Ideal)) :
    (⟨S128x192, .f32⟩ : BufTy).Contents (Elt Ideal) :=
  concatenate S128x192 1 [⟨S128x64, Wroot⟩,
    ⟨S128x64, shapeCast S128x64 (extractStridedSlice S1x128x64 ![0, 0, 0] Wrel slices_S2x128x64_S1x128x64_0_0_0) shapeCasts_S1x128x64_S128x64⟩,
    ⟨S128x64, shapeCast S128x64 (extractStridedSlice S1x128x64 ![1, 0, 0] Wrel slices_S2x128x64_S1x128x64_1_0_0) shapeCasts_S1x128x64_S128x64⟩]
    concatenates_S128x64_S128x64_S128x64_S128x192_d1
def bcomb2 (b : (⟨S64, .f32⟩ : BufTy).Contents (Elt Ideal)) : (⟨S1x192, .f32⟩ : BufTy).Contents (Elt Ideal) :=
  shapeCast S1x192 (concatenate S192 0 [⟨S64, b⟩,
    ⟨S64, broadcastInDim S64 ![] bcast_S_S64 (constant (F := Ideal) S_ .f32 0x00000000#32)⟩,
    ⟨S64, broadcastInDim S64 ![] bcast_S_S64 (constant (F := Ideal) S_ .f32 0x00000000#32)⟩]
    concatenates_S64_S64_S64_S192_d0) shapeCasts_S192_S1x192

theorem src_read0 (W : Valuation τ sig (Elt Ideal)) : StableHlo.after (hostOps0 (F := Ideal)) W main_v1 = edgeRow0 (W main_arg1) := by
  after_results_simp; rfl
theorem dst_read0 (W : Valuation τ sig (Elt Ideal)) : StableHlo.after (hostOps0 (F := Ideal)) W main_v3 = edgeRow1 (W main_arg1) := by
  after_results_simp; rfl
theorem src_read1 (W : Valuation τ sig (Elt Ideal)) : StableHlo.after (hostOps1_6 (F := Ideal)) W main_v67 = edgeRow0 (W main_arg1) := by
  after_results_simp; rfl
theorem dst_read1 (W : Valuation τ sig (Elt Ideal)) : StableHlo.after (hostOps1_6 (F := Ideal)) W main_v69 = edgeRow1 (W main_arg1) := by
  after_results_simp; rfl

theorem wcomb1_read (W : Valuation τ sig (Elt Ideal)) :
    StableHlo.after (hostOps0 (F := Ideal)) W main_v8 = wcomb1 (W main_arg4) (W main_arg3) := by
  after_results_simp
  refine concat3_congr _ _ _ _ _ _ _ _ ?_ ?_ ?_
  · rfl
  · show (StableHlo.reshape main_v6 main_v7 _ shapeCasts_S1x128x128_S128x128 _ _).result _ (Proc.devRef .tc main_v5) = _
    after_results_simp; rfl
  · show (StableHlo.reshape main_v6 main_v7 _ shapeCasts_S1x128x128_S128x128 _ _).result _ (Proc.devRef .tc main_v7) = _
    after_results_simp; rfl

theorem wcomb2_read (W : Valuation τ sig (Elt Ideal)) :
    StableHlo.after (hostOps1_6 (F := Ideal)) W main_v74 = wcomb2 (W main_arg7) (W main_arg6) := by
  after_results_simp
  refine concat3_congr _ _ _ _ _ _ _ _ ?_ ?_ ?_
  · rfl
  · show (StableHlo.reshape main_v72 main_v73 _ shapeCasts_S1x128x64_S128x64 _ _).result _ (Proc.devRef .tc main_v71) = _
    after_results_simp; rfl
  · show (StableHlo.reshape main_v72 main_v73 _ shapeCasts_S1x128x64_S128x64 _ _).result _ (Proc.devRef .tc main_v73) = _
    after_results_simp; rfl

theorem bcomb1_read (W : Valuation τ sig (Elt Ideal)) :
    StableHlo.after (hostOps0 (F := Ideal)) W main_v12 = bcomb1 (W main_arg5) := by
  after_results_simp
  unfold bcomb1
  refine congrArg (fun v => shapeCast S1x384 v shapeCasts_S384_S1x384) ?_
  refine concat3_congr _ _ _ _ _ _ _ _ ?_ ?_ ?_
  · rfl
  · show (StableHlo.unary main_cst_0 main_v10 _ _ _).result _ (Proc.devRef .tc main_v9) = _
    after_results_simp
  · show (StableHlo.unary main_cst_0 main_v10 _ _ _).result _ (Proc.devRef .tc main_v10) = _
    after_results_simp

theorem bcomb2_read (W : Valuation τ sig (Elt Ideal)) :
    StableHlo.after (hostOps1_6 (F := Ideal)) W main_v78 = bcomb2 (W main_arg8) := by
  after_results_simp
  unfold bcomb2
  refine congrArg (fun v => shapeCast S1x192 v shapeCasts_S192_S1x192) ?_
  refine concat3_congr _ _ _ _ _ _ _ _ ?_ ?_ ?_
  · rfl
  · show (StableHlo.unary main_cst_15 main_v76 _ _ _).result _ (Proc.devRef .tc main_v75) = _
    after_results_simp
  · show (StableHlo.unary main_cst_15 main_v76 _ _ _).result _ (Proc.devRef .tc main_v76) = _
    after_results_simp

end Cert.KernelIdeal.HostRead

end
-- ==== Proof.Comb.lean ====
/-
  The combined weights and bias read at an entry.

  `[W_root | W_rel0 | W_rel1]` at column `128·r + c` is block r at column c — the root matrix for r = 0, matrix r − 1 of
  the relation stack otherwise — and the combined bias row `[b | 0 | 0]` is the root bias on the first block and zero on
  the other two. The same with 64 columns per block for the second layer.
-/
import proofs.«165880_j73478300500627_1_alg».proof.Proof.KIHost
import proofs.«165880_j73478300500627_1_alg».proof.Proof.LibHostSliceProduct
import Idealize.ShloMosaic.Lib.Pipeline.Value
import Idealize.ShloMosaic.Lib.ValueIdx
import Idealize.ShloMosaic.Lib.ValueLayout

noncomputable section

namespace Cert.KernelIdeal.HostRead

open Cert.KernelIdeal Cert.KernelIdeal.Gen Idealize.ShloMosaic Idealize.ShloMosaic.ValueIdx
open Cert.LibConcat3 (concat3_apply zeros_apply)

/-! ## Layer one -/

theorem wcomb1_root (Wroot : (⟨S128x128, .f32⟩ : BufTy).Contents (Elt Ideal)) (Wrel : (⟨S2x128x128, .f32⟩ : BufTy).Contents (Elt Ideal))
    (k : Fin 128) (c : Fin 128) : wcomb1 Wroot Wrel (ix2 k (⟨c.val, by omega⟩ : Fin 384)) = Wroot (ix2 k c) := by
  unfold wcomb1
  refine (concat3_apply (t := S128x384) (s := S128x128) (1 : Fin 2) _ _ _ _ rfl 0 (ix2 k (⟨c.val, by omega⟩ : Fin 384)) (ix2 k c)
    (fun b hb => by match b with | ⟨0, _⟩ => rfl | ⟨1, _⟩ => exact absurd rfl hb) (by show 0 * 128 + c.val = c.val; omega)).trans ?_
  rfl

theorem wcomb1_rel (Wroot : (⟨S128x128, .f32⟩ : BufTy).Contents (Elt Ideal)) (Wrel : (⟨S2x128x128, .f32⟩ : BufTy).Contents (Elt Ideal))
    (q : Fin 2) (k : Fin 128) (c : Fin 128) :
    wcomb1 Wroot Wrel (ix2 k (⟨128 * (q.val + 1) + c.val, by omega⟩ : Fin 384)) = Wrel (ix3 q k c) := by
  unfold wcomb1
  match q with
  | ⟨0, _⟩ =>
    refine (concat3_apply (t := S128x384) (s := S128x128) (1 : Fin 2) _ _ _ _ rfl 1 (ix2 k (⟨128 * (0 + 1) + c.val, by omega⟩ : Fin 384)) (ix2 k c)
      (fun b hb => by match b with | ⟨0, _⟩ => rfl | ⟨1, _⟩ => exact absurd rfl hb) (by show 1 * 128 + c.val = 128 * (0 + 1) + c.val; omega)).trans ?_
    show shapeCast S128x128 (extractStridedSlice S1x128x128 ![0, 0, 0] Wrel slices_S2x128x128_S1x128x128_0_0_0) shapeCasts_S1x128x128_S128x128 (ix2 k c) = _
    exact Cert.LibHostSliceProduct.sliceCast_apply Wrel 0 (0 : Fin 2) rfl _ _ k c
  | ⟨1, _⟩ =>
    refine (concat3_apply (t := S128x384) (s := S128x128) (1 : Fin 2) _ _ _ _ rfl 2 (ix2 k (⟨128 * (1 + 1) + c.val, by omega⟩ : Fin 384)) (ix2 k c)
      (fun b hb => by match b with | ⟨0, _⟩ => rfl | ⟨1, _⟩ => exact absurd rfl hb) (by show 2 * 128 + c.val = 128 * (1 + 1) + c.val; omega)).trans ?_
    show shapeCast S128x128 (extractStridedSlice S1x128x128 ![1, 0, 0] Wrel slices_S2x128x128_S1x128x128_1_0_0) shapeCasts_S1x128x128_S128x128 (ix2 k c) = _
    exact Cert.LibHostSliceProduct.sliceCast_apply Wrel 1 (1 : Fin 2) rfl _ _ k c

theorem bcomb1_root (b : (⟨S128, .f32⟩ : BufTy).Contents (Elt Ideal)) (c : Fin 128) :
    bcomb1 b (ix2 (0 : Fin 1) (⟨c.val, by omega⟩ : Fin 384)) = b (ix1 c) := by
  unfold bcomb1
  rw [shapeCast_a_1a_apply]
  refine (concat3_apply (t := S384) (s := S128) (0 : Fin 1) _ _ _ _ rfl 0 (ix1 (⟨c.val, by omega⟩ : Fin 384)) (ix1 c)
    (fun b hb => by match b with | ⟨0, _⟩ => exact absurd rfl hb) (by show 0 * 128 + c.val = c.val; omega)).trans ?_
  rfl

theorem bcomb1_rel (b : (⟨S128, .f32⟩ : BufTy).Contents (Elt Ideal)) (q : Fin 2) (c : Fin 128) :
    bcomb1 b (ix2 (0 : Fin 1) (⟨128 * (q.val + 1) + c.val, by omega⟩ : Fin 384)) = 0 := by
  unfold bcomb1
  rw [shapeCast_a_1a_apply]
  match q with
  | ⟨0, _⟩ =>
    refine (concat3_apply (t := S384) (s := S128) (0 : Fin 1) _ _ _ _ rfl 1 (ix1 (⟨128 * (0 + 1) + c.val, by omega⟩ : Fin 384)) (ix1 c)
      (fun b hb => by match b with | ⟨0, _⟩ => exact absurd rfl hb) (by show 1 * 128 + c.val = 128 * (0 + 1) + c.val; omega)).trans ?_
    show broadcastInDim S128 ![] bcast_S_S128 (constant (F := Ideal) S_ .f32 0x00000000#32) (ix1 c) = 0
    exact zeros_apply _ _
  | ⟨1, _⟩ =>
    refine (concat3_apply (t := S384) (s := S128) (0 : Fin 1) _ _ _ _ rfl 2 (ix1 (⟨128 * (1 + 1) + c.val, by omega⟩ : Fin 384)) (ix1 c)
      (fun b hb => by match b with | ⟨0, _⟩ => exact absurd rfl hb) (by show 2 * 128 + c.val = 128 * (1 + 1) + c.val; omega)).trans ?_
    show broadcastInDim S128 ![] bcast_S_S128 (constant (F := Ideal) S_ .f32 0x00000000#32) (ix1 c) = 0
    exact zeros_apply _ _

/-! ## Layer two -/

theorem wcomb2_root (Wroot : (⟨S128x64, .f32⟩ : BufTy).Contents (Elt Ideal)) (Wrel : (⟨S2x128x64, .f32⟩ : BufTy).Contents (Elt Ideal))
    (k : Fin 128) (c : Fin 64) : wcomb2 Wroot Wrel (ix2 k (⟨c.val, by omega⟩ : Fin 192)) = Wroot (ix2 k c) := by
  unfold wcomb2
  refine (concat3_apply (t := S128x192) (s := S128x64) (1 : Fin 2) _ _ _ _ rfl 0 (ix2 k (⟨c.val, by omega⟩ : Fin 192)) (ix2 k c)
    (fun b hb => by match b with | ⟨0, _⟩ => rfl | ⟨1, _⟩ => exact absurd rfl hb) (by show 0 * 64 + c.val = c.val; omega)).trans ?_
  rfl

theorem wcomb2_rel (Wroot : (⟨S128x64, .f32⟩ : BufTy).Contents (Elt Ideal)) (Wrel : (⟨S2x128x64, .f32⟩ : BufTy).Contents (Elt Ideal))
    (q : Fin 2) (k : Fin 128) (c : Fin 64) :
    wcomb2 Wroot Wrel (ix2 k (⟨64 * (q.val + 1) + c.val, by omega⟩ : Fin 192)) = Wrel (ix3 q k c) := by
  unfold wcomb2
  match q with
  | ⟨0, _⟩ =>
    refine (concat3_apply (t := S128x192) (s := S128x64) (1 : Fin 2) _ _ _ _ rfl 1 (ix2 k (⟨64 * (0 + 1) + c.val, by omega⟩ : Fin 192)) (ix2 k c)
      (fun b hb => by match b with | ⟨0, _⟩ => rfl | ⟨1, _⟩ => exact absurd rfl hb) (by show 1 * 64 + c.val = 64 * (0 + 1) + c.val; omega)).trans ?_
    show shapeCast S128x64 (extractStridedSlice S1x128x64 ![0, 0, 0] Wrel slices_S2x128x64_S1x128x64_0_0_0) shapeCasts_S1x128x64_S128x64 (ix2 k c) = _
    exact Cert.LibHostSliceProduct.sliceCast_apply Wrel 0 (0 : Fin 2) rfl _ _ k c
  | ⟨1, _⟩ =>
    refine (concat3_apply (t := S128x192) (s := S128x64) (1 : Fin 2) _ _ _ _ rfl 2 (ix2 k (⟨64 * (1 + 1) + c.val, by omega⟩ : Fin 192)) (ix2 k c)
      (fun b hb => by match b with | ⟨0, _⟩ => rfl | ⟨1, _⟩ => exact absurd rfl hb) (by show 2 * 64 + c.val = 64 * (1 + 1) + c.val; omega)).trans ?_
    show shapeCast S128x64 (extractStridedSlice S1x128x64 ![1, 0, 0] Wrel slices_S2x128x64_S1x128x64_1_0_0) shapeCasts_S1x128x64_S128x64 (ix2 k c) = _
    exact Cert.LibHostSliceProduct.sliceCast_apply Wrel 1 (1 : Fin 2) rfl _ _ k c

theorem bcomb2_root (b : (⟨S64, .f32⟩ : BufTy).Contents (Elt Ideal)) (c : Fin 64) :
    bcomb2 b (ix2 (0 : Fin 1) (⟨c.val, by omega⟩ : Fin 192)) = b (ix1 c) := by
  unfold bcomb2
  rw [shapeCast_a_1a_apply]
  refine (concat3_apply (t := S192) (s := S64) (0 : Fin 1) _ _ _ _ rfl 0 (ix1 (⟨c.val, by omega⟩ : Fin 192)) (ix1 c)
    (fun b hb => by match b with | ⟨0, _⟩ => exact absurd rfl hb) (by show 0 * 64 + c.val = c.val; omega)).trans ?_
  rfl

theorem bcomb2_rel (b : (⟨S64, .f32⟩ : BufTy).Contents (Elt Ideal)) (q : Fin 2) (c : Fin 64) :
    bcomb2 b (ix2 (0 : Fin 1) (⟨64 * (q.val + 1) + c.val, by omega⟩ : Fin 192)) = 0 := by
  unfold bcomb2
  rw [shapeCast_a_1a_apply]
  match q with
  | ⟨0, _⟩ =>
    refine (concat3_apply (t := S192) (s := S64) (0 : Fin 1) _ _ _ _ rfl 1 (ix1 (⟨64 * (0 + 1) + c.val, by omega⟩ : Fin 192)) (ix1 c)
      (fun b hb => by match b with | ⟨0, _⟩ => exact absurd rfl hb) (by show 1 * 64 + c.val = 64 * (0 + 1) + c.val; omega)).trans ?_
    show broadcastInDim S64 ![] bcast_S_S64 (constant (F := Ideal) S_ .f32 0x00000000#32) (ix1 c) = 0
    exact zeros_apply _ _
  | ⟨1, _⟩ =>
    refine (concat3_apply (t := S192) (s := S64) (0 : Fin 1) _ _ _ _ rfl 2 (ix1 (⟨64 * (1 + 1) + c.val, by omega⟩ : Fin 192)) (ix1 c)
      (fun b hb => by match b with | ⟨0, _⟩ => exact absurd rfl hb) (by show 2 * 64 + c.val = 64 * (1 + 1) + c.val; omega)).trans ?_
    show broadcastInDim S64 ![] bcast_S_S64 (constant (F := Ideal) S_ .f32 0x00000000#32) (ix1 c) = 0
    exact zeros_apply _ _

end Cert.KernelIdeal.HostRead

end
-- ==== Proof.RefSide.lean ====
/-
  The reference program's stages, regrouped: the reference computes each layer as the same function of a root term
  and two per-relation message arrays as the kernel's host side does — only the root term and the messages are
  computed differently (product after gathering, instead of gathering the product).
-/
import proofs.«165880_j73478300500627_1_alg».proof.Proof.Gen.ReferenceIdeal.Read
import proofs.«165880_j73478300500627_1_alg».proof.Proof.KIHost

noncomputable section

namespace Cert.ReferenceIdeal.RefValue

open Cert.ReferenceIdeal Cert.ReferenceIdeal.Read Idealize.ShloMosaic
open Cert.KernelIdeal.HostRead (tail128 tail64 hidden output nidx mask wh128 wh64 edgeRow0 edgeRow1)

variable (x0 : (⟨S100000x128, .f32⟩ : BufTy).Contents (Elt Ideal)) (x1 : (⟨S2x1600000, .i32⟩ : BufTy).Contents (Elt Ideal))
  (x2 : (⟨S1600000, .i32⟩ : BufTy).Contents (Elt Ideal)) (x3 : (⟨S2x128x128, .f32⟩ : BufTy).Contents (Elt Ideal))
  (x4 : (⟨S128x128, .f32⟩ : BufTy).Contents (Elt Ideal)) (x5 : (⟨S128, .f32⟩ : BufTy).Contents (Elt Ideal))
  (x6 : (⟨S2x128x64, .f32⟩ : BufTy).Contents (Elt Ideal)) (x7 : (⟨S128x64, .f32⟩ : BufTy).Contents (Elt Ideal))
  (x8 : (⟨S64, .f32⟩ : BufTy).Contents (Elt Ideal))

set_option maxHeartbeats 1000000 in
/-- The reference's hidden features: the shared layer function of its own root term and messages. -/
theorem ref_hidden :
    val_main_v55 (F := Ideal) x0 x1 x2 x3 x4 x5
      = tail128 (val_main_v7 x0 x4 x5) (val_main_v21 x0 x1 x2 x3) (val_main_v41 x0 x1 x2 x3) (val_main_v3 x1) x2 := rfl

set_option maxHeartbeats 1000000 in
/-- The reference's result: the shared second-layer function of its own root term and messages. -/
theorem ref_output :
    val_main_v118 (F := Ideal) x0 x1 x2 x3 x4 x5 x6 x7 x8
      = tail64 (val_main_v63 x0 x1 x2 x3 x4 x5 x7 x8) (val_main_v77 x0 x1 x2 x3 x4 x5 x6) (val_main_v97 x0 x1 x2 x3 x4 x5 x6)
          (val_main_v59 x1) x2 := rfl

end Cert.ReferenceIdeal.RefValue

end
-- ==== Proof.Master.lean ====
/-
  The two programs compute one function.

  With the combined product `Y = X · [W_root | W_rel0 | W_rel1] + [b | 0 | 0]` known entry by entry, its first column block
  is the reference's root term and, for each relation, the masked gather of the next block is the reference's masked
  gather followed by the relation's product; everything after these three arrays is the same text in both programs.
  Layer two repeats the argument over the (equal) hidden features.
-/
import proofs.«165880_j73478300500627_1_alg».proof.Proof.LibGatherProject
import proofs.«165880_j73478300500627_1_alg».proof.Proof.Comb
import proofs.«165880_j73478300500627_1_alg».proof.Proof.RefSide

noncomputable section

open scoped BigOperators

namespace Cert.Master

open Cert.KernelIdeal Cert.KernelIdeal.Gen Idealize.ShloMosaic Idealize.ShloMosaic.ValueIdx
open Cert.KernelIdeal.HostRead
open Cert.LibConcat3 (zeros_apply)
open Cert.ReferenceIdeal.Read (val_main_v3 val_main_v7 val_main_v21 val_main_v41 val_main_v55 val_main_v59 val_main_v63 val_main_v77 val_main_v97 val_main_v118)

variable (x0 : (⟨S100000x128, .f32⟩ : BufTy).Contents (Elt Ideal)) (x1 : (⟨S2x1600000, .i32⟩ : BufTy).Contents (Elt Ideal))
  (x2 : (⟨S1600000, .i32⟩ : BufTy).Contents (Elt Ideal)) (x3 : (⟨S2x128x128, .f32⟩ : BufTy).Contents (Elt Ideal))
  (x4 : (⟨S128x128, .f32⟩ : BufTy).Contents (Elt Ideal)) (x5 : (⟨S128, .f32⟩ : BufTy).Contents (Elt Ideal))
  (x6 : (⟨S2x128x64, .f32⟩ : BufTy).Contents (Elt Ideal)) (x7 : (⟨S128x64, .f32⟩ : BufTy).Contents (Elt Ideal))
  (x8 : (⟨S64, .f32⟩ : BufTy).Contents (Elt Ideal))

/-! ## Layer one -/

section L1

variable (Y1 : (⟨S100000x384, .f32⟩ : BufTy).Contents (Elt Ideal))
  (hY1 : ∀ (p : Fin 100000) (q : Fin 384),
    Y1 (ix2 p q) = (∑ k : Fin 128, x0 (ix2 p k) * wcomb1 x4 x3 (ix2 k q)) + bcomb1 x5 (ix2 (0 : Fin 1) q))

include hY1

/-- The first column block: the root product plus the root bias. -/
theorem blk0_1 (n : Fin 100000) (j : Fin 128) :
    blk128_0 Y1 (ix2 n j) = (∑ k : Fin 128, x0 (ix2 n k) * x4 (ix2 k j)) + x5 (ix1 j) := by
  unfold blk128_0
  rw [extractStridedSlice_apply (![0, 0] : Fin 2 → Nat) Y1 slices_S100000x384_S100000x128_0_0 (ix2 n j)
    (ix2 n (⟨j.val, by omega⟩ : Fin 384)) (fun a => by
      match a with
      | ⟨0, _⟩ => exact (Nat.zero_add _).symm
      | ⟨1, _⟩ => exact (Nat.zero_add _).symm)]
  rw [hY1, bcomb1_root]
  refine congrArg (· + _) (Finset.sum_congr rfl fun k _ => ?_)
  rw [wcomb1_root]

/-- The second column block: relation 0's product, the bias block being zero. -/
theorem blk1_1 (n : Fin 100000) (j : Fin 128) :
    blk128_1 Y1 (ix2 n j) = (∑ k : Fin 128, x0 (ix2 n k) * x3 (ix3 (0 : Fin 2) k j)) + 0 := by
  unfold blk128_1
  rw [extractStridedSlice_apply (![0, 128] : Fin 2 → Nat) Y1 slices_S100000x384_S100000x128_0_128 (ix2 n j)
    (ix2 n (⟨128 * ((0 : Fin 2).val + 1) + j.val, by show 128 * (0 + 1) + j.val < 384; omega⟩ : Fin 384)) (fun a => by
      match a with
      | ⟨0, _⟩ => exact (Nat.zero_add _).symm
      | ⟨1, _⟩ => show 128 * (0 + 1) + j.val = 128 + j.val; omega)]
  rw [hY1, bcomb1_rel x5 0 j]
  refine congrArg (· + _) (Finset.sum_congr rfl fun k _ => ?_)
  rw [wcomb1_rel x4 x3 0 k j]

/-- The third column block: relation 1's product. -/
theorem blk2_1 (n : Fin 100000) (j : Fin 128) :
    blk128_2 Y1 (ix2 n j) = (∑ k : Fin 128, x0 (ix2 n k) * x3 (ix3 (1 : Fin 2) k j)) + 0 := by
  unfold blk128_2
  rw [extractStridedSlice_apply (![0, 256] : Fin 2 → Nat) Y1 slices_S100000x384_S100000x128_0_256 (ix2 n j)
    (ix2 n (⟨128 * ((1 : Fin 2).val + 1) + j.val, by show 128 * (1 + 1) + j.val < 384; omega⟩ : Fin 384)) (fun a => by
      match a with
      | ⟨0, _⟩ => exact (Nat.zero_add _).symm
      | ⟨1, _⟩ => show 128 * (1 + 1) + j.val = 256 + j.val; omega)]
  rw [hY1, bcomb1_rel x5 1 j]
  refine congrArg (· + _) (Finset.sum_congr rfl fun k _ => ?_)
  rw [wcomb1_rel x4 x3 1 k j]

theorem root1 : blk128_0 Y1 = val_main_v7 (F := Ideal) x0 x4 x5 :=
  Cert.RgcnBridge.root_eq Cert.ReferenceIdeal.dot_S100000x128_S128x128_S100000x128_1_0_0_1_n_n rfl rfl rfl rfl rfl rfl x0 x4 x5
    Cert.ReferenceIdeal.Gen.bcast_S128_S1x128_1 Cert.ReferenceIdeal.Gen.bcast_S1x128_S100000x128_0_1 (blk128_0 Y1) (blk0_1 x0 x3 x4 x5 Y1 hY1)

theorem msg1_0 :
    wh128 (mask 0#32 x2) (Host.gather gather_S100000x128_S1600000x1_S1600000x128_1_0_n_n_0_1_1128 (blk128_1 Y1) (nidx (edgeRow0 x1))) = val_main_v21 (F := Ideal) x0 x1 x2 x3 :=
  Cert.RgcnBridge.msg_eq (by decide) gather_S100000x128_S1600000x1_S1600000x128_1_0_n_n_0_1_1128 rfl rfl rfl rfl rfl rfl rfl Cert.ReferenceIdeal.gather_S100000x128_S1600000x1_S1600000x128_1_0_n_n_0_1_1128 rfl rfl rfl rfl rfl rfl rfl
    Cert.ReferenceIdeal.dot_S1600000x128_S128x128_S1600000x128_1_0_0_1_n_n rfl rfl rfl rfl rfl rfl x0 x3 0 (0 : Fin 2) rfl
    Cert.ReferenceIdeal.Gen.slices_S2x128x128_S1x128x128_0_0_0 Cert.ReferenceIdeal.Gen.shapeCasts_S1x128x128_S128x128 (blk128_1 Y1) (blk1_1 x0 x3 x4 x5 Y1 hY1)
    (nidx (edgeRow0 x1)) (fun e => mask 0#32 x2 (ix1 e))
    _ (fun e j => Cert.RgcnBridge.colmask_apply _ _ _ e j) _ (fun e k => Cert.RgcnBridge.colmask_apply _ _ _ e k)
    _ (fun i => zeros_apply _ i) _ (fun i => zeros_apply _ i)

theorem msg1_1 :
    wh128 (mask 1#32 x2) (Host.gather gather_S100000x128_S1600000x1_S1600000x128_1_0_n_n_0_1_1128 (blk128_2 Y1) (nidx (edgeRow0 x1))) = val_main_v41 (F := Ideal) x0 x1 x2 x3 :=
  Cert.RgcnBridge.msg_eq (by decide) gather_S100000x128_S1600000x1_S1600000x128_1_0_n_n_0_1_1128 rfl rfl rfl rfl rfl rfl rfl Cert.ReferenceIdeal.gather_S100000x128_S1600000x1_S1600000x128_1_0_n_n_0_1_1128 rfl rfl rfl rfl rfl rfl rfl
    Cert.ReferenceIdeal.dot_S1600000x128_S128x128_S1600000x128_1_0_0_1_n_n rfl rfl rfl rfl rfl rfl x0 x3 1 (1 : Fin 2) rfl
    Cert.ReferenceIdeal.Gen.slices_S2x128x128_S1x128x128_1_0_0 Cert.ReferenceIdeal.Gen.shapeCasts_S1x128x128_S128x128 (blk128_2 Y1) (blk2_1 x0 x3 x4 x5 Y1 hY1)
    (nidx (edgeRow0 x1)) (fun e => mask 1#32 x2 (ix1 e))
    _ (fun e j => Cert.RgcnBridge.colmask_apply _ _ _ e j) _ (fun e k => Cert.RgcnBridge.colmask_apply _ _ _ e k)
    _ (fun i => zeros_apply _ i) _ (fun i => zeros_apply _ i)

/-- THE HIDDEN FEATURES are the reference's. -/
theorem hidden_eq : Cert.KernelIdeal.HostRead.hidden Y1 (edgeRow0 x1) (edgeRow1 x1) x2 = val_main_v55 (F := Ideal) x0 x1 x2 x3 x4 x5 := by
  rw [Cert.ReferenceIdeal.RefValue.ref_hidden]
  unfold Cert.KernelIdeal.HostRead.hidden
  rw [root1 x0 x3 x4 x5 Y1 hY1, msg1_0 x0 x1 x2 x3 x4 x5 Y1 hY1, msg1_1 x0 x1 x2 x3 x4 x5 Y1 hY1]
  rfl

end L1

/-! ## Layer two and the result -/

section L2

variable (Y2 : (⟨S100000x192, .f32⟩ : BufTy).Contents (Elt Ideal))
  (hY2 : ∀ (p : Fin 100000) (q : Fin 192),
    Y2 (ix2 p q) = (∑ k : Fin 128, (val_main_v55 (F := Ideal) x0 x1 x2 x3 x4 x5) (ix2 p k) * wcomb2 x7 x6 (ix2 k q)) + bcomb2 x8 (ix2 (0 : Fin 1) q))

include hY2

theorem blk0_2 (n : Fin 100000) (j : Fin 64) :
    blk64_0 Y2 (ix2 n j) = (∑ k : Fin 128, (val_main_v55 (F := Ideal) x0 x1 x2 x3 x4 x5) (ix2 n k) * x7 (ix2 k j)) + x8 (ix1 j) := by
  unfold blk64_0
  rw [extractStridedSlice_apply (![0, 0] : Fin 2 → Nat) Y2 slices_S100000x192_S100000x64_0_0 (ix2 n j)
    (ix2 n (⟨j.val, by omega⟩ : Fin 192)) (fun a => by
      match a with
      | ⟨0, _⟩ => exact (Nat.zero_add _).symm
      | ⟨1, _⟩ => exact (Nat.zero_add _).symm)]
  rw [hY2, bcomb2_root]
  refine congrArg (· + _) (Finset.sum_congr rfl fun k _ => ?_)
  rw [wcomb2_root]

theorem blk1_2 (n : Fin 100000) (j : Fin 64) :
    blk64_1 Y2 (ix2 n j) = (∑ k : Fin 128, (val_main_v55 (F := Ideal) x0 x1 x2 x3 x4 x5) (ix2 n k) * x6 (ix3 (0 : Fin 2) k j)) + 0 := by
  unfold blk64_1
  rw [extractStridedSlice_apply (![0, 64] : Fin 2 → Nat) Y2 slices_S100000x192_S100000x64_0_64 (ix2 n j)
    (ix2 n (⟨64 * ((0 : Fin 2).val + 1) + j.val, by show 64 * (0 + 1) + j.val < 192; omega⟩ : Fin 192)) (fun a => by
      match a with
      | ⟨0, _⟩ => exact (Nat.zero_add _).symm
      | ⟨1, _⟩ => show 64 * (0 + 1) + j.val = 64 + j.val; omega)]
  rw [hY2, bcomb2_rel x8 0 j]
  refine congrArg (· + _) (Finset.sum_congr rfl fun k _ => ?_)
  rw [wcomb2_rel x7 x6 0 k j]

theorem blk2_2 (n : Fin 100000) (j : Fin 64) :
    blk64_2 Y2 (ix2 n j) = (∑ k : Fin 128, (val_main_v55 (F := Ideal) x0 x1 x2 x3 x4 x5) (ix2 n k) * x6 (ix3 (1 : Fin 2) k j)) + 0 := by
  unfold blk64_2
  rw [extractStridedSlice_apply (![0, 128] : Fin 2 → Nat) Y2 slices_S100000x192_S100000x64_0_128 (ix2 n j)
    (ix2 n (⟨64 * ((1 : Fin 2).val + 1) + j.val, by show 64 * (1 + 1) + j.val < 192; omega⟩ : Fin 192)) (fun a => by
      match a with
      | ⟨0, _⟩ => exact (Nat.zero_add _).symm
      | ⟨1, _⟩ => show 64 * (1 + 1) + j.val = 128 + j.val; omega)]
  rw [hY2, bcomb2_rel x8 1 j]
  refine congrArg (· + _) (Finset.sum_congr rfl fun k _ => ?_)
  rw [wcomb2_rel x7 x6 1 k j]

theorem root2 : blk64_0 Y2 = val_main_v63 (F := Ideal) x0 x1 x2 x3 x4 x5 x7 x8 :=
  Cert.RgcnBridge.root_eq Cert.ReferenceIdeal.dot_S100000x128_S128x64_S100000x64_1_0_0_1_n_n rfl rfl rfl rfl rfl rfl (val_main_v55 (F := Ideal) x0 x1 x2 x3 x4 x5) x7 x8
    Cert.ReferenceIdeal.Gen.bcast_S64_S1x64_1 Cert.ReferenceIdeal.Gen.bcast_S1x64_S100000x64_0_1 (blk64_0 Y2) (blk0_2 x0 x1 x2 x3 x4 x5 x6 x7 x8 Y2 hY2)

theorem msg2_0 :
    wh64 (mask 0#32 x2) (Host.gather gather_S100000x64_S1600000x1_S1600000x64_1_0_n_n_0_1_164 (blk64_1 Y2) (nidx (edgeRow0 x1))) = val_main_v77 (F := Ideal) x0 x1 x2 x3 x4 x5 x6 :=
  Cert.RgcnBridge.msg_eq (by decide) gather_S100000x64_S1600000x1_S1600000x64_1_0_n_n_0_1_164 rfl rfl rfl rfl rfl rfl rfl Cert.ReferenceIdeal.gather_S100000x128_S1600000x1_S1600000x128_1_0_n_n_0_1_1128 rfl rfl rfl rfl rfl rfl rfl
    Cert.ReferenceIdeal.dot_S1600000x128_S128x64_S1600000x64_1_0_0_1_n_n rfl rfl rfl rfl rfl rfl (val_main_v55 (F := Ideal) x0 x1 x2 x3 x4 x5) x6 0 (0 : Fin 2) rfl
    Cert.ReferenceIdeal.Gen.slices_S2x128x64_S1x128x64_0_0_0 Cert.ReferenceIdeal.Gen.shapeCasts_S1x128x64_S128x64 (blk64_1 Y2) (blk1_2 x0 x1 x2 x3 x4 x5 x6 x7 x8 Y2 hY2)
    (nidx (edgeRow0 x1)) (fun e => mask 0#32 x2 (ix1 e))
    _ (fun e j => Cert.RgcnBridge.colmask_apply _ _ _ e j) _ (fun e k => Cert.RgcnBridge.colmask_apply _ _ _ e k)
    _ (fun i => zeros_apply _ i) _ (fun i => zeros_apply _ i)

theorem msg2_1 :
    wh64 (mask 1#32 x2) (Host.gather gather_S100000x64_S1600000x1_S1600000x64_1_0_n_n_0_1_164 (blk64_2 Y2) (nidx (edgeRow0 x1))) = val_main_v97 (F := Ideal) x0 x1 x2 x3 x4 x5 x6 :=
  Cert.RgcnBridge.msg_eq (by decide) gather_S100000x64_S1600000x1_S1600000x64_1_0_n_n_0_1_164 rfl rfl rfl rfl rfl rfl rfl Cert.ReferenceIdeal.gather_S100000x128_S1600000x1_S1600000x128_1_0_n_n_0_1_1128 rfl rfl rfl rfl rfl rfl rfl
    Cert.ReferenceIdeal.dot_S1600000x128_S128x64_S1600000x64_1_0_0_1_n_n rfl rfl rfl rfl rfl rfl (val_main_v55 (F := Ideal) x0 x1 x2 x3 x4 x5) x6 1 (1 : Fin 2) rfl
    Cert.ReferenceIdeal.Gen.slices_S2x128x64_S1x128x64_1_0_0 Cert.ReferenceIdeal.Gen.shapeCasts_S1x128x64_S128x64 (blk64_2 Y2) (blk2_2 x0 x1 x2 x3 x4 x5 x6 x7 x8 Y2 hY2)
    (nidx (edgeRow0 x1)) (fun e => mask 1#32 x2 (ix1 e))
    _ (fun e j => Cert.RgcnBridge.colmask_apply _ _ _ e j) _ (fun e k => Cert.RgcnBridge.colmask_apply _ _ _ e k)
    _ (fun i => zeros_apply _ i) _ (fun i => zeros_apply _ i)

/-- THE RESULT is the reference's. -/
theorem output_eq : output Y2 (edgeRow0 x1) (edgeRow1 x1) x2 = val_main_v118 (F := Ideal) x0 x1 x2 x3 x4 x5 x6 x7 x8 := by
  rw [Cert.ReferenceIdeal.RefValue.ref_output]
  unfold output
  rw [root2 x0 x1 x2 x3 x4 x5 x6 x7 x8 Y2 hY2, msg2_0 x0 x1 x2 x3 x4 x5 x6 x7 x8 Y2 hY2, msg2_1 x0 x1 x2 x3 x4 x5 x6 x7 x8 Y2 hY2]
  rfl

end L2

end Cert.Master

end
-- ==== Proof.KIChain.lean ====
/-
  The kernel program's result, traced through its fifteen items: the host prepares the combined weights and the edge
  lists, the first launch leaves the combined product of the features, the host turns it into the hidden features,
  the second launch leaves their combined product, and the host finishes; every piece read as the pure function it is,
  the whole is the reference's function of the nine arguments.
-/
import proofs.«165880_j73478300500627_1_alg».proof.Proof.KIRun
import proofs.«165880_j73478300500627_1_alg».proof.Proof.KIValue
import proofs.«165880_j73478300500627_1_alg».proof.Proof.Master

noncomputable section

open scoped BigOperators

namespace Cert.KernelIdeal.Chain

open Cert.KernelIdeal Cert.KernelIdeal.Gen Cert.KernelIdeal.Hand Cert.KernelIdeal.HandValue Cert.KernelIdeal.HostRead
open Idealize.ShloMosaic Idealize.ShloMosaic.TcCoe Idealize.SL.Sem Idealize.ShloMosaic.ValueIdx

variable (m : (ℓ : Loc nD τ sig) → Buf (Elt Ideal) ℓ) (c : Dev nD)

/-- Argument 0 as launched, on core `c`. -/
abbrev A0 : (⟨S100000x128, .f32⟩ : BufTy).Contents (Elt Ideal) := m ((c : Thread nD τ).loc main_arg0)
/-- Argument 1 as launched, on core `c`. -/
abbrev A1 : (⟨S2x1600000, .i32⟩ : BufTy).Contents (Elt Ideal) := m ((c : Thread nD τ).loc main_arg1)
/-- Argument 2 as launched, on core `c`. -/
abbrev A2 : (⟨S1600000, .i32⟩ : BufTy).Contents (Elt Ideal) := m ((c : Thread nD τ).loc main_arg2)
/-- Argument 3 as launched, on core `c`. -/
abbrev A3 : (⟨S2x128x128, .f32⟩ : BufTy).Contents (Elt Ideal) := m ((c : Thread nD τ).loc main_arg3)
/-- Argument 4 as launched, on core `c`. -/
abbrev A4 : (⟨S128x128, .f32⟩ : BufTy).Contents (Elt Ideal) := m ((c : Thread nD τ).loc main_arg4)
/-- Argument 5 as launched, on core `c`. -/
abbrev A5 : (⟨S128, .f32⟩ : BufTy).Contents (Elt Ideal) := m ((c : Thread nD τ).loc main_arg5)
/-- Argument 6 as launched, on core `c`. -/
abbrev A6 : (⟨S2x128x64, .f32⟩ : BufTy).Contents (Elt Ideal) := m ((c : Thread nD τ).loc main_arg6)
/-- Argument 7 as launched, on core `c`. -/
abbrev A7 : (⟨S128x64, .f32⟩ : BufTy).Contents (Elt Ideal) := m ((c : Thread nD τ).loc main_arg7)
/-- Argument 8 as launched, on core `c`. -/
abbrev A8 : (⟨S64, .f32⟩ : BufTy).Contents (Elt Ideal) := m ((c : Thread nD τ).loc main_arg8)

/-! ## The arguments as the later items find them -/

theorem arg1_at8 : V8 m (outs m) c main_arg1 = (A1 m c) := (V8_of m (outs m) c main_arg1 (by decide)).trans <| (V7_of m (outs m) c main_arg1 (by decide)).trans <| (V6_of m (outs m) c main_arg1 (by decide)).trans <| (V5_of m (outs m) c main_arg1 (by decide)).trans <| (V4_of m (outs m) c main_arg1 (by decide)).trans <| (V3_of m (outs m) c main_arg1 (by decide)).trans <| (V2_of m (outs m) c main_arg1 (by decide)).trans <| (V1_of m c main_arg1 (by decide)).trans rfl
theorem arg6_at8 : V8 m (outs m) c main_arg6 = (A6 m c) := (V8_of m (outs m) c main_arg6 (by decide)).trans <| (V7_of m (outs m) c main_arg6 (by decide)).trans <| (V6_of m (outs m) c main_arg6 (by decide)).trans <| (V5_of m (outs m) c main_arg6 (by decide)).trans <| (V4_of m (outs m) c main_arg6 (by decide)).trans <| (V3_of m (outs m) c main_arg6 (by decide)).trans <| (V2_of m (outs m) c main_arg6 (by decide)).trans <| (V1_of m c main_arg6 (by decide)).trans rfl
theorem arg7_at8 : V8 m (outs m) c main_arg7 = (A7 m c) := (V8_of m (outs m) c main_arg7 (by decide)).trans <| (V7_of m (outs m) c main_arg7 (by decide)).trans <| (V6_of m (outs m) c main_arg7 (by decide)).trans <| (V5_of m (outs m) c main_arg7 (by decide)).trans <| (V4_of m (outs m) c main_arg7 (by decide)).trans <| (V3_of m (outs m) c main_arg7 (by decide)).trans <| (V2_of m (outs m) c main_arg7 (by decide)).trans <| (V1_of m c main_arg7 (by decide)).trans rfl
theorem arg8_at8 : V8 m (outs m) c main_arg8 = (A8 m c) := (V8_of m (outs m) c main_arg8 (by decide)).trans <| (V7_of m (outs m) c main_arg8 (by decide)).trans <| (V6_of m (outs m) c main_arg8 (by decide)).trans <| (V5_of m (outs m) c main_arg8 (by decide)).trans <| (V4_of m (outs m) c main_arg8 (by decide)).trans <| (V3_of m (outs m) c main_arg8 (by decide)).trans <| (V2_of m (outs m) c main_arg8 (by decide)).trans <| (V1_of m c main_arg8 (by decide)).trans rfl
theorem arg2_at10 : V10 m (outs m) c main_arg2 = (A2 m c) :=
  (V10_of m (outs m) c main_arg2 (by decide)).trans <| (V9_of m (outs m) c main_arg2 (by decide)).trans <| (V8_of m (outs m) c main_arg2 (by decide)).trans <| (V7_of m (outs m) c main_arg2 (by decide)).trans <| (V6_of m (outs m) c main_arg2 (by decide)).trans <| (V5_of m (outs m) c main_arg2 (by decide)).trans <| (V4_of m (outs m) c main_arg2 (by decide)).trans <| (V3_of m (outs m) c main_arg2 (by decide)).trans <| (V2_of m (outs m) c main_arg2 (by decide)).trans <| (V1_of m c main_arg2 (by decide)).trans rfl

/-! ## The first launch's product -/

/-- What the first launch leaves in its output array. -/
abbrev Y1 : (⟨S100000x384, .f32⟩ : BufTy).Contents (Elt Ideal) := outs m 2 main_v13 c
/-- What the second launch leaves in its output array. -/
abbrev Y2 : (⟨S100000x192, .f32⟩ : BufTy).Contents (Elt Ideal) := outs m 10 main_v79 c

/-- What the first launch leaves, entry by entry: the features times the combined weights plus the combined bias. -/
theorem y1_apply (p : Fin 100000) (q : Fin 384) :
    (Y1 m c) (ix2 p q)
      = (∑ k : Fin 128, (A0 m c) (ix2 p k) * wcomb1 (A4 m c) (A3 m c) (ix2 k q))
        + bcomb1 (A5 m c) (ix2 (0 : Fin 1) q) := by
  show (outs m 2 main_v13 c) (ix2 p q) = _
  rw [outs_2, final0]
  have e0 : inX0 (fun c b => V1 m c b) c = (A0 m c) := (V1_of m c main_arg0 (by decide)).trans rfl
  have e1 : inW0 (fun c b => V1 m c b) c = wcomb1 (A4 m c) (A3 m c) := wcomb1_read (V0 m c)
  have e2 : inB0 (fun c b => V1 m c b) c = bcomb1 (A5 m c) := bcomb1_read (V0 m c)
  rw [e0, e1, e2]

/-- The hidden features the second launch reads are the reference's. -/
theorem hidden_at9 :
    V9 m (outs m) c main_v65
      = Cert.ReferenceIdeal.Read.val_main_v55 (F := Ideal) (A0 m c) (A1 m c) (A2 m c) (A3 m c) (A4 m c) (A5 m c) := by
  refine (V9_of m (outs m) c main_v65 (by decide)).trans ?_
  refine (hidden_read (V2 m (outs m) c)).trans ?_
  have h13 : V2 m (outs m) c main_v13 = Y1 m c := Function.update_self _ _ _
  have h1 : V2 m (outs m) c main_v1 = edgeRow0 (A1 m c) :=
    (V2_of m (outs m) c main_v1 (by decide)).trans (src_read0 (V0 m c))
  have h3 : V2 m (outs m) c main_v3 = edgeRow1 (A1 m c) :=
    (V2_of m (outs m) c main_v3 (by decide)).trans (dst_read0 (V0 m c))
  have h2 : V2 m (outs m) c main_arg2 = (A2 m c) :=
    (V2_of m (outs m) c main_arg2 (by decide)).trans <| (V1_of m c main_arg2 (by decide)).trans rfl
  rw [h13, h1, h3, h2]
  exact Cert.Master.hidden_eq _ _ _ _ _ _ _ (y1_apply m c)

/-! ## The second launch's product and the result -/

theorem y2_apply (p : Fin 100000) (q : Fin 192) :
    (Y2 m c) (ix2 p q)
      = (∑ k : Fin 128, (Cert.ReferenceIdeal.Read.val_main_v55 (F := Ideal) (A0 m c) (A1 m c) (A2 m c) (A3 m c) (A4 m c) (A5 m c)) (ix2 p k)
            * wcomb2 (A7 m c) (A6 m c) (ix2 k q))
        + bcomb2 (A8 m c) (ix2 (0 : Fin 1) q) := by
  show (outs m 10 main_v79 c) (ix2 p q) = _
  rw [outs_10, final1]
  have e0 : inX1 (fun c b => V9 m (outs m) c b) c = _ := hidden_at9 m c
  have e1 : inW1 (fun c b => V9 m (outs m) c b) c = wcomb2 (A7 m c) (A6 m c) := by
    refine (wcomb2_read (V8 m (outs m) c)).trans ?_
    rw [arg7_at8, arg6_at8]
  have e2 : inB1 (fun c b => V9 m (outs m) c b) c = bcomb2 (A8 m c) := by
    refine (bcomb2_read (V8 m (outs m) c)).trans ?_
    rw [arg8_at8]
  rw [e0, e1, e2]

/-- THE KERNEL PROGRAM'S RESULT is the reference's function of the arguments. -/
theorem result_eq :
    V15 m (outs m) c main_v138
      = Cert.ReferenceIdeal.Read.val_main_v118 (F := Ideal) (A0 m c) (A1 m c) (A2 m c) (A3 m c) (A4 m c) (A5 m c) (A6 m c) (A7 m c) (A8 m c) := by
  refine (output_read (V10 m (outs m) c)).trans ?_
  have h79 : V10 m (outs m) c main_v79 = Y2 m c := Function.update_self _ _ _
  have h67 : V10 m (outs m) c main_v67 = edgeRow0 (A1 m c) := by
    refine (V10_of m (outs m) c main_v67 (by decide)).trans ?_
    refine (src_read1 (V8 m (outs m) c)).trans ?_
    rw [arg1_at8]
  have h69 : V10 m (outs m) c main_v69 = edgeRow1 (A1 m c) := by
    refine (V10_of m (outs m) c main_v69 (by decide)).trans ?_
    refine (dst_read1 (V8 m (outs m) c)).trans ?_
    rw [arg1_at8]
  rw [h79, h67, h69, arg2_at10]
  exact Cert.Master.output_eq _ _ _ _ _ _ _ _ _ _ (y2_apply m c)

end Cert.KernelIdeal.Chain

end
-- ==== Proof.lean ====
/-
  A two-layer relational graph convolution: the kernel program computes, per layer, ONE dense product of the node features
  with the concatenated weights `[W_root | W_rel0 | W_rel1]` (a row-blocked matrix kernel) and gathers, masks and averages
  column blocks of that product over the edges on the host; the reference gathers and masks the features first and
  multiplies each relation's messages by its weight matrix afterwards. On the extended reals the two agree entry by
  entry: right-multiplication acts on columns while gathering and masking act on rows, a masked-out row gives a zero
  sum whatever the weights, and the zero bias blocks add nothing. Every later operation (the per-destination sums, the
  clamped counts, the division, the positive part, the row normalization) is the same text in both programs, applied
  to equal arrays.

  The three frames: the kernel program's two launches are run block by block (each point loads a row block, the whole
  weights and bias, and stores the block of the product) inside the launch theorem for a program of several regions;
  the reference is a straight line of host operations. The idealized kernel is the kernel's own text read at the ideal
  instance, so nothing is owed for it.
-/
import proofs.«165880_j73478300500627_1_alg».proof.Defs
import proofs.«165880_j73478300500627_1_alg».proof.Proof.Gen.Kernel
import proofs.«165880_j73478300500627_1_alg».proof.Proof.Gen.KernelIdeal
import proofs.«165880_j73478300500627_1_alg».proof.Proof.Gen.ReferenceIdeal
import proofs.«165880_j73478300500627_1_alg».proof.Proof.Gen.Pre_finite_inputs
import proofs.«165880_j73478300500627_1_alg».proof.Proof.KRun
import proofs.«165880_j73478300500627_1_alg».proof.Proof.KIChain

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result array: the kernel program's last buffer contents, read through
    its fifteen items, are the reference's composed term of the (agreeing) arguments. -/
theorem algebraic : Cert.algebraic_KernelIdeal_ReferenceIdeal := by
  intro m ρ m' ρ' _ hagree
  refine ⟨fun c => Cert.KernelIdeal.Gen.V15 m (Cert.KernelIdeal.Hand.outs m) c Cert.KernelIdeal.main_v138, ?_, ?_⟩
  · refine (θ_run Cert.KernelIdeal.defs _ _).mono (fun r h c => ?_) (Cert.KernelIdeal.Hand.run (F := Ideal) m ρ)
    have hc := h c
    exact ⟨hc (Proc.devRef .tc Cert.KernelIdeal.main_v138) (Finset.mem_filter.mpr ⟨StableHlo.devRef_mem_tcRefs Cert.KernelIdeal.main_v138, by decide⟩),
      (hc (Proc.devRef .tc Cert.KernelIdeal.main_arg0) (Finset.mem_filter.mpr ⟨StableHlo.devRef_mem_tcRefs Cert.KernelIdeal.main_arg0, by decide⟩)).trans (Cert.KernelIdeal.Gen.V15_main_arg0 m (Cert.KernelIdeal.Hand.outs m) c),
      (hc (Proc.devRef .tc Cert.KernelIdeal.main_arg1) (Finset.mem_filter.mpr ⟨StableHlo.devRef_mem_tcRefs Cert.KernelIdeal.main_arg1, by decide⟩)).trans (Cert.KernelIdeal.Gen.V15_main_arg1 m (Cert.KernelIdeal.Hand.outs m) c),
      (hc (Proc.devRef .tc Cert.KernelIdeal.main_arg2) (Finset.mem_filter.mpr ⟨StableHlo.devRef_mem_tcRefs Cert.KernelIdeal.main_arg2, by decide⟩)).trans (Cert.KernelIdeal.Gen.V15_main_arg2 m (Cert.KernelIdeal.Hand.outs m) c),
      (hc (Proc.devRef .tc Cert.KernelIdeal.main_arg3) (Finset.mem_filter.mpr ⟨StableHlo.devRef_mem_tcRefs Cert.KernelIdeal.main_arg3, by decide⟩)).trans (Cert.KernelIdeal.Gen.V15_main_arg3 m (Cert.KernelIdeal.Hand.outs m) c),
      (hc (Proc.devRef .tc Cert.KernelIdeal.main_arg4) (Finset.mem_filter.mpr ⟨StableHlo.devRef_mem_tcRefs Cert.KernelIdeal.main_arg4, by decide⟩)).trans (Cert.KernelIdeal.Gen.V15_main_arg4 m (Cert.KernelIdeal.Hand.outs m) c),
      (hc (Proc.devRef .tc Cert.KernelIdeal.main_arg5) (Finset.mem_filter.mpr ⟨StableHlo.devRef_mem_tcRefs Cert.KernelIdeal.main_arg5, by decide⟩)).trans (Cert.KernelIdeal.Gen.V15_main_arg5 m (Cert.KernelIdeal.Hand.outs m) c),
      (hc (Proc.devRef .tc Cert.KernelIdeal.main_arg6) (Finset.mem_filter.mpr ⟨StableHlo.devRef_mem_tcRefs Cert.KernelIdeal.main_arg6, by decide⟩)).trans (Cert.KernelIdeal.Gen.V15_main_arg6 m (Cert.KernelIdeal.Hand.outs m) c),
      (hc (Proc.devRef .tc Cert.KernelIdeal.main_arg7) (Finset.mem_filter.mpr ⟨StableHlo.devRef_mem_tcRefs Cert.KernelIdeal.main_arg7, by decide⟩)).trans (Cert.KernelIdeal.Gen.V15_main_arg7 m (Cert.KernelIdeal.Hand.outs m) c),
      (hc (Proc.devRef .tc Cert.KernelIdeal.main_arg8) (Finset.mem_filter.mpr ⟨StableHlo.devRef_mem_tcRefs Cert.KernelIdeal.main_arg8, by decide⟩)).trans (Cert.KernelIdeal.Gen.V15_main_arg8 m (Cert.KernelIdeal.Hand.outs m) c)⟩
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v118_eq, a0, a1, a2, a3, a4, a5, a6, a7, a8]
    exact (Cert.KernelIdeal.Chain.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
